-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x32 : Shape := ⟨2, ![512, 32]⟩
abbrev S32 : Shape := ⟨1, ![32]⟩
abbrev S32x32 : Shape := ⟨2, ![32, 32]⟩
abbrev S32x40 : Shape := ⟨2, ![32, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x40 : S_.BroadcastsInDim S32x40 (![] : Fin 0 → Fin S32x40.rank)
  reducesTo_S32x40_S_d0_1 : S32x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S32 .f32) (main_arg6 : FVec F S32x40 .f32) (main_arg7 : FVec F S40 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x40 .f32 := Host.absf main_arg6
  let main_cst_8 : FVec F S_ .f32 := constant S_ .f32 0x7F800000#32
  let main_v25 : FVec F S32x40 .f32 := broadcastInDim S32x40 ![] bcast_S_S32x40 main_cst_8
  let main_v26 : IVec S32x40 1 := cmpf .olt main_v24 main_v25
  let main_c_9 : IVec S_ 1 := constantI S_ 1 1#1
  let main_v27 : IVec S_ 1 := (fun x v => Host.reduce IntOp.andi x v reducesTo_S32x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x512 .f32) (main_arg1 : IVec S2x3200000 32) (main_arg2 : FVec F S512x32 .f32) (main_arg3 : FVec F S32 .f32) (main_arg4 : FVec F S32x32 .f32) (main_arg5 : FVec F S32 .f32) (main_arg6 : FVec F S32x40 .f32) (main_arg7 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x32 .f32 := Host.absf main_arg2
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_arg6 main_arg7 main_v13 main_v16
-- ==== Kernel.lean ====
abbrev S100000x512 : Shape := ⟨2, ![100000, 512]⟩
abbrev S2x3200000 : Shape := ⟨2, ![2, 3200000]⟩
abbrev S512x32 : Shape := ⟨2, ![512, 32]⟩
abbrev S32 : Shape := ⟨1, ![32]⟩
abbrev S32x32 : Shape := ⟨2, ![32, 32]⟩
abbrev S32x40 : Shape := ⟨2, ![32, 40]⟩
abbrev S40 : Shape := ⟨1, ![40]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S4000x512 : Shape := ⟨2, ![4000, 512]⟩
abbrev S4000x32 : Shape := ⟨2, ![4000, 32]⟩
abbrev S3300000x32 : Shape := ⟨2, ![3300000, 32]⟩
abbrev S1x32 : Shape := ⟨2, ![1, 32]⟩
abbrev S1x1 : Shape := ⟨2, ![1, 1]⟩
abbrev S10000x32 : Shape := ⟨2, ![10000, 32]⟩
abbrev S100000x40 : Shape := ⟨2, ![100000, 40]⟩
abbrev S4000x40 : Shape := ⟨2, ![4000, 40]⟩
abbrev S3300000x40 : Shape := ⟨2, ![3300000, 40]⟩
abbrev S1x40 : Shape := ⟨2, ![1, 40]⟩

abbrev nBuf : Space → Nat
  | .hbm => 148
  | .vmem => 27
  | .smem => 0
  | _ => 0

abbrev hbmTy0_0 (i : Nat) : BufTy := match i % 128 with
  | 0 => ⟨S100000x512, .f32⟩
  | 1 => ⟨S2x3200000, .i32⟩
  | 2 => ⟨S512x32, .f32⟩
  | 3 => ⟨S32, .f32⟩
  | 4 => ⟨S32x32, .f32⟩
  | 5 => ⟨S32, .f32⟩
  | 6 => ⟨S32x40, .f32⟩
  | 7 => ⟨S40, .f32⟩
  | 8 => ⟨S1x3200000, .i32⟩
  | 9 => ⟨S3200000, .i32⟩
  | 10 => ⟨S1x3200000, .i32⟩
  | 11 => ⟨S3200000, .i32⟩
  | 12 => ⟨S100000, .i32⟩
  | 13 => ⟨S3300000, .i32⟩
  | 14 => ⟨S3300000, .i32⟩
  | 15 => ⟨S_, .f32⟩
  | 16 => ⟨S3300000, .f32⟩
  | 17 => ⟨S_, .f32⟩
  | 18 => ⟨S100000, .f32⟩
  | 19 => ⟨S3300000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S3300000, .i32⟩
  | 31 => ⟨S3300000, .i1⟩
  | 32 => ⟨S_, .i32⟩
  | 33 => ⟨S3300000, .i32⟩
  | 34 => ⟨S3300000, .i32⟩
  | 35 => ⟨S3300000, .i32⟩
  | 36 => ⟨S3300000x1, .i32⟩
  | 37 => ⟨S3300000, .f32⟩
  | 38 => ⟨S_, .i32⟩
  | 39 => ⟨S3300000, .i32⟩
  | 40 => ⟨S3300000, .i1⟩
  | 41 => ⟨S_, .i32⟩
  | 42 => ⟨S3300000, .i32⟩
  | 43 => ⟨S3300000, .i32⟩
  | 44 => ⟨S3300000, .i32⟩
  | 45 => ⟨S3300000x1, .i32⟩
  | 46 => ⟨S3300000, .f32⟩
  | 47 => ⟨S3300000, .f32⟩
  | 48 => ⟨S100000x32, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000x32, .f32⟩
  | 58 => ⟨S3300000x1, .f32⟩
  | 59 => ⟨S3300000x32, .f32⟩
  | 60 => ⟨S3300000x32, .f32⟩
  | 61 => ⟨S_, .f32⟩
  | 62 => ⟨S100000x32, .f32⟩
  | 63 => ⟨S3300000x1, .i32⟩
  | 64 => ⟨S100000x32, .f32⟩
  | 65 => ⟨S1x32, .f32⟩
  | 66 => ⟨S100000x32, .f32⟩
  | 67 => ⟨S100000x32, .f32⟩
  | 68 => ⟨S_, .f32⟩
  | 69 => ⟨S32, .f32⟩
  | 70 => ⟨S1x32, .f32⟩
  | 71 => ⟨S_, .f32⟩
  | 72 => ⟨S1x32, .f32⟩
  | 73 => ⟨S1x32, .f32⟩
  | 74 => ⟨S100000x32, .f32⟩
  | 75 => ⟨S100000x32, .f32⟩
  | 76 => ⟨S100000x32, .f32⟩
  | 77 => ⟨S_, .f32⟩
  | 78 => ⟨S100000, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S1x1, .f32⟩
  | 87 => ⟨S100000x32, .f32⟩
  | 88 => ⟨S100000x32, .f32⟩
  | 89 => ⟨S_, .i32⟩
  | 90 => ⟨S3300000, .i32⟩
  | 91 => ⟨S3300000, .i1⟩
  | 92 => ⟨S_, .i32⟩
  | 93 => ⟨S3300000, .i32⟩
  | 94 => ⟨S3300000, .i32⟩
  | 95 => ⟨S3300000, .i32⟩
  | 96 => ⟨S3300000x1, .i32⟩
  | 97 => ⟨S3300000x32, .f32⟩
  | 98 => ⟨S3300000x1, .f32⟩
  | 99 => ⟨S3300000x32, .f32⟩
  | 100 => ⟨S3300000x32, .f32⟩
  | 101 => ⟨S_, .f32⟩
  | 102 => ⟨S100000x32, .f32⟩
  | 103 => ⟨S3300000x1, .i32⟩
  | 104 => ⟨S100000x32, .f32⟩
  | 105 => ⟨S1x32, .f32⟩
  | 106 => ⟨S100000x32, .f32⟩
  | 107 => ⟨S100000x32, .f32⟩
  | 108 => ⟨S_, .f32⟩
  | 109 => ⟨S32, .f32⟩
  | 110 => ⟨S1x32, .f32⟩
  | 111 => ⟨S_, .f32⟩
  | 112 => ⟨S1x32, .f32⟩
  | 113 => ⟨S1x32, .f32⟩
  | 114 => ⟨S100000x32, .f32⟩
  | 115 => ⟨S100000x32, .f32⟩
  | 116 => ⟨S100000x32, .f32⟩
  | 117 => ⟨S_, .f32⟩
  | 118 => ⟨S100000, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S1x1, .f32⟩
  | 127 => ⟨S100000x32, .f32⟩
  | _ => ⟨S100000x512, .f32⟩

abbrev hbmTy0_1 (i : Nat) : BufTy := match i % 128 with
  | 0 => ⟨S100000x40, .f32⟩
  | 1 => ⟨S_, .i32⟩
  | 2 => ⟨S3300000, .i32⟩
  | 3 => ⟨S3300000, .i1⟩
  | 4 => ⟨S_, .i32⟩
  | 5 => ⟨S3300000, .i32⟩
  | 6 => ⟨S3300000, .i32⟩
  | 7 => ⟨S3300000, .i32⟩
  | 8 => ⟨S3300000x1, .i32⟩
  | 9 => ⟨S3300000x40, .f32⟩
  | 10 => ⟨S3300000x1, .f32⟩
  | 11 => ⟨S3300000x40, .f32⟩
  | 12 => ⟨S3300000x40, .f32⟩
  | 13 => ⟨S_, .f32⟩
  | 14 => ⟨S100000x40, .f32⟩
  | 15 => ⟨S3300000x1, .i32⟩
  | 16 => ⟨S100000x40, .f32⟩
  | 17 => ⟨S1x40, .f32⟩
  | 18 => ⟨S100000x40, .f32⟩
  | 19 => ⟨S100000x40, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | .local _ .vmem, ⟨0, _⟩ => ⟨S4000x512, .f32⟩
  | .local _ .vmem, ⟨1, _⟩ => ⟨S4000x512, .f32⟩
  | .local _ .vmem, ⟨2, _⟩ => ⟨S512x32, .f32⟩
  | .local _ .vmem, ⟨3, _⟩ => ⟨S4000x32, .f32⟩
  | .local _ .vmem, ⟨4, _⟩ => ⟨S4000x32, .f32⟩
  | .local _ .vmem, ⟨5, _⟩ => ⟨S10000x32, .f32⟩
  | .local _ .vmem, ⟨6, _⟩ => ⟨S10000x32, .f32⟩
  | .local _ .vmem, ⟨7, _⟩ => ⟨S1x32, .f32⟩
  | .local _ .vmem, ⟨8, _⟩ => ⟨S1x1, .f32⟩
  | .local _ .vmem, ⟨9, _⟩ => ⟨S10000x32, .f32⟩
  | .local _ .vmem, ⟨10, _⟩ => ⟨S10000x32, .f32⟩
  | .local _ .vmem, ⟨11, _⟩ => ⟨S4000x32, .f32⟩
  | .local _ .vmem, ⟨12, _⟩ => ⟨S4000x32, .f32⟩
  | .local _ .vmem, ⟨13, _⟩ => ⟨S32x32, .f32⟩
  | .local _ .vmem, ⟨14, _⟩ => ⟨S4000x32, .f32⟩
  | .local _ .vmem, ⟨15, _⟩ => ⟨S4000x32, .f32⟩
  | .local _ .vmem, ⟨16, _⟩ => ⟨S10000x32, .f32⟩
  | .local _ .vmem, ⟨17, _⟩ => ⟨S10000x32, .f32⟩
  | .local _ .vmem, ⟨18, _⟩ => ⟨S1x32, .f32⟩
  | .local _ .vmem, ⟨19, _⟩ => ⟨S1x1, .f32⟩
  | .local _ .vmem, ⟨20, _⟩ => ⟨S10000x32, .f32⟩
  | .local _ .vmem, ⟨21, _⟩ => ⟨S10000x32, .f32⟩
  | .local _ .vmem, ⟨22, _⟩ => ⟨S4000x32, .f32⟩
  | .local _ .vmem, ⟨23, _⟩ => ⟨S4000x32, .f32⟩
  | .local _ .vmem, ⟨24, _⟩ => ⟨S32x40, .f32⟩
  | .local _ .vmem, ⟨25, _⟩ => ⟨S4000x40, .f32⟩
  | .local _ .vmem, ⟨26, _⟩ => ⟨S4000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_cst_13 : Ref sig .tc := ⟨.hbm, 81, rfl⟩
abbrev main_v56 : Ref sig .tc := ⟨.hbm, 82, rfl⟩
abbrev main_cst_14 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_15 : Ref sig .tc := ⟨.hbm, 89, rfl⟩
abbrev main_v62 : Ref sig .tc := ⟨.hbm, 90, rfl⟩
abbrev main_v63 : Ref sig .tc := ⟨.hbm, 91, rfl⟩
abbrev main_c_16 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_17 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_18 : Ref sig .tc := ⟨.hbm, 108, rfl⟩
abbrev main_v78 : Ref sig .tc := ⟨.hbm, 109, rfl⟩
abbrev main_v79 : Ref sig .tc := ⟨.hbm, 110, rfl⟩
abbrev main_cst_19 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_20 : Ref sig .tc := ⟨.hbm, 117, rfl⟩
abbrev main_v85 : Ref sig .tc := ⟨.hbm, 118, rfl⟩
abbrev main_cst_21 : Ref sig .tc := ⟨.hbm, 119, rfl⟩
abbrev main_v86 : Ref sig .tc := ⟨.hbm, 120, rfl⟩
abbrev main_cst_22 : Ref sig .tc := ⟨.hbm, 121, rfl⟩
abbrev main_v87 : Ref sig .tc := ⟨.hbm, 122, rfl⟩
abbrev main_cst_23 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_c_24 : Ref sig .tc := ⟨.hbm, 129, rfl⟩
abbrev main_v93 : Ref sig .tc := ⟨.hbm, 130, rfl⟩
abbrev main_v94 : Ref sig .tc := ⟨.hbm, 131, rfl⟩
abbrev main_c_25 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_26 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x32_S512x32_0_0 : ∀ a, (![0, 0] : Fin 2 → Nat) a + S512x32.size a ≤ S512x32.size a
  h_S512x32 : 0 < S512x32.numel
  inb_S4000x32_S4000x32_0_0 : ∀ a, (![0, 0] : Fin 2 → Nat) a + S4000x32.size a ≤ S4000x32.size a
  h_S4000x32 : 0 < S4000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S32_d0 : S100000x32.ReducesTo [0] S32
  h_S_ : 0 < S_.numel
  bcast_S_S1x32 : S_.BroadcastsInDim S1x32 (![] : Fin 0 → Fin S1x32.rank)
  reducesTo_S100000x32_S100000_d1 : S100000x32.ReducesTo [1] S100000
  reducesTo_S100000_S_d0 : S100000.ReducesTo [0] S_
  shapeCasts_S_S1x1 : S_.ShapeCasts S1x1
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x32 : S1x1.Broadcasts S10000x32
  shapeCasts_S4000x32_S4000x32 : S4000x32.ShapeCasts S4000x32
  inb_S32x32_S32x32_0_0 : ∀ a, (![0, 0] : Fin 2 → Nat) a + S32x32.size a ≤ S32x32.size a
  h_S32x32 : 0 < S32x32.numel
  inb_S32x40_S32x40_0_0 : ∀ a, (![0, 0] : Fin 2 → Nat) a + S32x40.size a ≤ S32x40.size a
  h_S32x40 : 0 < S32x40.numel
  inb_S4000x40_S4000x40_0_0 : ∀ a, (![0, 0] : Fin 2 → Nat) a + S4000x40.size a ≤ S4000x40.size a
  h_S4000x40 : 0 < S4000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S4000x512_S512x32_S4000x32_1_0_0_1_n_n_wf : DotDims.WF S4000x512 S512x32 S4000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S4000x32_S32x32_S4000x32_1_0_0_1_n_n_wf : DotDims.WF S4000x32 S32x32 S4000x32 [1] [0] [0] [1] [] []
  dot_S4000x32_S32x40_S4000x40_1_0_0_1_n_n_wf : DotDims.WF S4000x32 S32x40 S4000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x32.size a ≤ S100000x32.size a
  hwx0_2 : ∀ i : grid0.Coords, EltTy.bits .f32 = 32 ∨ (Rect.block (s := S100000x32) S4000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x32.size a ≤ S100000x32.size a
  hwx1_3 : ∀ i : grid1.Coords, EltTy.bits .f32 = 32 ∨ (Rect.block (s := S100000x32) S10000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x32.size a ≤ S100000x32.size a
  hwx2_0 : ∀ i : grid2.Coords, EltTy.bits .f32 = 32 ∨ (Rect.block (s := S100000x32) S4000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x32.size a ≤ S100000x32.size a
  hwx2_2 : ∀ i : grid2.Coords, EltTy.bits .f32 = 32 ∨ (Rect.block (s := S100000x32) S4000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x32.size a ≤ S100000x32.size a
  hwx3_3 : ∀ i : grid3.Coords, EltTy.bits .f32 = 32 ∨ (Rect.block (s := S100000x32) S10000x32.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x32.size a ≤ S100000x32.size a
  hwx4_0 : ∀ i : grid4.Coords, EltTy.bits .f32 = 32 ∨ (Rect.block (s := S100000x32) S4000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x40.size a ≤ S32x40.size a
  hwx4_1 : ∀ i : grid4.Coords, EltTy.bits .f32 = 32 ∨ (Rect.block (s := S32x40) S32x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x40.size a ≤ S100000x40.size a
  hwx4_2 : ∀ i : grid4.Coords, EltTy.bits .f32 = 32 ∨ (Rect.block (s := S100000x40) S4000x40.size (cc4_transform_2 i) (hinb4_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S4000x512_S512x32_S4000x32_1_0_0_1_n_n : DotDims S4000x512 S512x32 S4000x32 where
  lhsContracting := [1]
  rhsContracting := [0]
  lhsNonContracting := [0]
  rhsNonContracting := [1]
  lhsBatch := []
  rhsBatch := []
  wf := dot_S4000x512_S512x32_S4000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S4000x32_S32x32_S4000x32_1_0_0_1_n_n : DotDims S4000x32 S32x32 S4000x32 where
  lhsContracting := [1]
  rhsContracting := [0]
  lhsNonContracting := [0]
  rhsNonContracting := [1]
  lhsBatch := []
  rhsBatch := []
  wf := dot_S4000x32_S32x32_S4000x32_1_0_0_1_n_n_wf
def dot_S4000x32_S32x40_S4000x40_1_0_0_1_n_n : DotDims S4000x32 S32x40 S4000x40 where
  lhsContracting := [1]
  rhsContracting := [0]
  lhsNonContracting := [0]
  rhsNonContracting := [1]
  lhsBatch := []
  rhsBatch := []
  wf := dot_S4000x32_S32x40_S4000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v59) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v60) S10000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S4000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S4000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v77) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v81) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v90) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v91) S10000x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v91) S4000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S32x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v92) S4000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x32 : Shape := ⟨2, ![512, 32]⟩
abbrev S32 : Shape := ⟨1, ![32]⟩
abbrev S32x32 : Shape := ⟨2, ![32, 32]⟩
abbrev S32x40 : Shape := ⟨2, ![32, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S3300000x32 : Shape := ⟨2, ![3300000, 32]⟩
abbrev S1x32 : Shape := ⟨2, ![1, 32]⟩
abbrev S100000x40 : Shape := ⟨2, ![100000, 40]⟩
abbrev S3300000x40 : Shape := ⟨2, ![3300000, 40]⟩
abbrev S1x40 : Shape := ⟨2, ![1, 40]⟩

abbrev nBuf : Space → Nat
  | .hbm => 154
  | .vmem => 0
  | .smem => 0
  | _ => 0

abbrev hbmTy0_0 (i : Nat) : BufTy := match i % 128 with
  | 0 => ⟨S100000x512, .f32⟩
  | 1 => ⟨S2x3200000, .i32⟩
  | 2 => ⟨S512x32, .f32⟩
  | 3 => ⟨S32, .f32⟩
  | 4 => ⟨S32x32, .f32⟩
  | 5 => ⟨S32, .f32⟩
  | 6 => ⟨S32x40, .f32⟩
  | 7 => ⟨S40, .f32⟩
  | 8 => ⟨S100000, .i32⟩
  | 9 => ⟨S1x3200000, .i32⟩
  | 10 => ⟨S3200000, .i32⟩
  | 11 => ⟨S3300000, .i32⟩
  | 12 => ⟨S1x3200000, .i32⟩
  | 13 => ⟨S3200000, .i32⟩
  | 14 => ⟨S3300000, .i32⟩
  | 15 => ⟨S_, .f32⟩
  | 16 => ⟨S3300000, .f32⟩
  | 17 => ⟨S_, .f32⟩
  | 18 => ⟨S100000, .f32⟩
  | 19 => ⟨S3300000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S3300000, .i32⟩
  | 31 => ⟨S3300000, .i1⟩
  | 32 => ⟨S_, .i32⟩
  | 33 => ⟨S3300000, .i32⟩
  | 34 => ⟨S3300000, .i32⟩
  | 35 => ⟨S3300000, .i32⟩
  | 36 => ⟨S3300000x1, .i32⟩
  | 37 => ⟨S3300000, .f32⟩
  | 38 => ⟨S_, .i32⟩
  | 39 => ⟨S3300000, .i32⟩
  | 40 => ⟨S3300000, .i1⟩
  | 41 => ⟨S_, .i32⟩
  | 42 => ⟨S3300000, .i32⟩
  | 43 => ⟨S3300000, .i32⟩
  | 44 => ⟨S3300000, .i32⟩
  | 45 => ⟨S3300000x1, .i32⟩
  | 46 => ⟨S3300000, .f32⟩
  | 47 => ⟨S3300000, .f32⟩
  | 48 => ⟨S100000x32, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000x32, .f32⟩
  | 58 => ⟨S3300000x1, .f32⟩
  | 59 => ⟨S3300000x32, .f32⟩
  | 60 => ⟨S3300000x32, .f32⟩
  | 61 => ⟨S_, .f32⟩
  | 62 => ⟨S100000x32, .f32⟩
  | 63 => ⟨S3300000x1, .i32⟩
  | 64 => ⟨S100000x32, .f32⟩
  | 65 => ⟨S1x32, .f32⟩
  | 66 => ⟨S100000x32, .f32⟩
  | 67 => ⟨S100000x32, .f32⟩
  | 68 => ⟨S_, .f32⟩
  | 69 => ⟨S32, .f32⟩
  | 70 => ⟨S1x32, .f32⟩
  | 71 => ⟨S_, .f32⟩
  | 72 => ⟨S1x32, .f32⟩
  | 73 => ⟨S1x32, .f32⟩
  | 74 => ⟨S100000x32, .f32⟩
  | 75 => ⟨S100000x32, .f32⟩
  | 76 => ⟨S100000x32, .f32⟩
  | 77 => ⟨S_, .f32⟩
  | 78 => ⟨S100000, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S100000x32, .f32⟩
  | 87 => ⟨S100000x32, .f32⟩
  | 88 => ⟨S_, .f32⟩
  | 89 => ⟨S100000x32, .f32⟩
  | 90 => ⟨S100000x32, .f32⟩
  | 91 => ⟨S100000x32, .f32⟩
  | 92 => ⟨S_, .i32⟩
  | 93 => ⟨S3300000, .i32⟩
  | 94 => ⟨S3300000, .i1⟩
  | 95 => ⟨S_, .i32⟩
  | 96 => ⟨S3300000, .i32⟩
  | 97 => ⟨S3300000, .i32⟩
  | 98 => ⟨S3300000, .i32⟩
  | 99 => ⟨S3300000x1, .i32⟩
  | 100 => ⟨S3300000x32, .f32⟩
  | 101 => ⟨S3300000x1, .f32⟩
  | 102 => ⟨S3300000x32, .f32⟩
  | 103 => ⟨S3300000x32, .f32⟩
  | 104 => ⟨S_, .f32⟩
  | 105 => ⟨S100000x32, .f32⟩
  | 106 => ⟨S3300000x1, .i32⟩
  | 107 => ⟨S100000x32, .f32⟩
  | 108 => ⟨S1x32, .f32⟩
  | 109 => ⟨S100000x32, .f32⟩
  | 110 => ⟨S100000x32, .f32⟩
  | 111 => ⟨S_, .f32⟩
  | 112 => ⟨S32, .f32⟩
  | 113 => ⟨S1x32, .f32⟩
  | 114 => ⟨S_, .f32⟩
  | 115 => ⟨S1x32, .f32⟩
  | 116 => ⟨S1x32, .f32⟩
  | 117 => ⟨S100000x32, .f32⟩
  | 118 => ⟨S100000x32, .f32⟩
  | 119 => ⟨S100000x32, .f32⟩
  | 120 => ⟨S_, .f32⟩
  | 121 => ⟨S100000, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S100000x512, .f32⟩

abbrev hbmTy0_1 (i : Nat) : BufTy := match i % 128 with
  | 0 => ⟨S_, .f32⟩
  | 1 => ⟨S100000x32, .f32⟩
  | 2 => ⟨S100000x32, .f32⟩
  | 3 => ⟨S_, .f32⟩
  | 4 => ⟨S100000x32, .f32⟩
  | 5 => ⟨S100000x32, .f32⟩
  | 6 => ⟨S100000x40, .f32⟩
  | 7 => ⟨S_, .i32⟩
  | 8 => ⟨S3300000, .i32⟩
  | 9 => ⟨S3300000, .i1⟩
  | 10 => ⟨S_, .i32⟩
  | 11 => ⟨S3300000, .i32⟩
  | 12 => ⟨S3300000, .i32⟩
  | 13 => ⟨S3300000, .i32⟩
  | 14 => ⟨S3300000x1, .i32⟩
  | 15 => ⟨S3300000x40, .f32⟩
  | 16 => ⟨S3300000x1, .f32⟩
  | 17 => ⟨S3300000x40, .f32⟩
  | 18 => ⟨S3300000x40, .f32⟩
  | 19 => ⟨S_, .f32⟩
  | 20 => ⟨S100000x40, .f32⟩
  | 21 => ⟨S3300000x1, .i32⟩
  | 22 => ⟨S100000x40, .f32⟩
  | 23 => ⟨S1x40, .f32⟩
  | 24 => ⟨S100000x40, .f32⟩
  | 25 => ⟨S100000x40, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_cst_13 : Ref sig .tc := ⟨.hbm, 81, rfl⟩
abbrev main_v56 : Ref sig .tc := ⟨.hbm, 82, rfl⟩
abbrev main_cst_14 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_call1_cst : Ref sig .tc := ⟨.hbm, 88, rfl⟩
abbrev main_call1_v0 : Ref sig .tc := ⟨.hbm, 89, rfl⟩
abbrev main_v61 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_17 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_18 : Ref sig .tc := ⟨.hbm, 111, rfl⟩
abbrev main_v79 : Ref sig .tc := ⟨.hbm, 112, rfl⟩
abbrev main_v80 : Ref sig .tc := ⟨.hbm, 113, rfl⟩
abbrev main_cst_19 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_20 : Ref sig .tc := ⟨.hbm, 120, rfl⟩
abbrev main_v86 : Ref sig .tc := ⟨.hbm, 121, rfl⟩
abbrev main_cst_21 : Ref sig .tc := ⟨.hbm, 122, rfl⟩
abbrev main_v87 : Ref sig .tc := ⟨.hbm, 123, rfl⟩
abbrev main_cst_22 : Ref sig .tc := ⟨.hbm, 124, rfl⟩
abbrev main_v88 : Ref sig .tc := ⟨.hbm, 125, rfl⟩
abbrev main_cst_23 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_call2_cst : Ref sig .tc := ⟨.hbm, 131, rfl⟩
abbrev main_call2_v0 : Ref sig .tc := ⟨.hbm, 132, rfl⟩
abbrev main_v93 : Ref sig .tc := ⟨.hbm, 133, rfl⟩
abbrev main_v94 : Ref sig .tc := ⟨.hbm, 134, rfl⟩
abbrev main_c_24 : Ref sig .tc := ⟨.hbm, 135, rfl⟩
abbrev main_v95 : Ref sig .tc := ⟨.hbm, 136, rfl⟩
abbrev main_v96 : Ref sig .tc := ⟨.hbm, 137, rfl⟩
abbrev main_c_25 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_26 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S32_d0 : S100000x32.ReducesTo [0] S32
  h_S_ : 0 < S_.numel
  bcast_S_S1x32 : S_.BroadcastsInDim S1x32 (![] : Fin 0 → Fin S1x32.rank)
  reducesTo_S100000x32_S100000_d1 : S100000x32.ReducesTo [1] S100000
  reducesTo_S100000_S_d0 : S100000.ReducesTo [0] S_
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x32_S100000x32_1_0_0_1_n_n_wf : DotDims.WF S100000x512 S512x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x32_S100000x32_1_0_0_1_n_n_wf : DotDims.WF S100000x32 S32x32 S100000x32 [1] [0] [0] [1] [] []
  dot_S100000x32_S32x40_S100000x40_1_0_0_1_n_n_wf : DotDims.WF S100000x32 S32x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x32_S100000x32_1_0_0_1_n_n : DotDims S100000x512 S512x32 S100000x32 where
  lhsContracting := [1]
  rhsContracting := [0]
  lhsNonContracting := [0]
  rhsNonContracting := [1]
  lhsBatch := []
  rhsBatch := []
  wf := dot_S100000x512_S512x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x40_S100000x40_1_0_0_1_n_n : DotDims S100000x32 S32x40 S100000x40 where
  lhsContracting := [1]
  rhsContracting := [0]
  lhsNonContracting := [0]
  rhsNonContracting := [1]
  lhsBatch := []
  rhsBatch := []
  wf := dot_S100000x32_S32x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.RunValue.lean ====
/-
  The tiled program's run, with its result named.

  The run passes through eleven segments: host stretches and the five tiled regions in turn.  At each boundary
  every buffer holds a known value: a host stretch applies its operations to the contents before it, and a region
  leaves its input arrays as it found them and each output array at what its blocks wrote back.  The last boundary's
  contents `W11` are therefore a fold over the whole program from the launch memory, and every weakly fair execution
  terminates, without a fault, with every buffer at that fold: in particular the result buffer, and each argument
  (which no operation and no region writes) at its launch contents.
-/
import proofs.«118178_j24773371364082_1_alg».proof.Proof.Gen.KernelIdeal.Frame

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's
    contents and every argument as launched. -/
theorem run : θ_run defs (onTc (τ := τ) (main (F := F))) ⟨m, fun _ => 0, ρ⟩ (fun r => ∀ c : Dev nD,
      r.2.mem ((c.tc : Thread nD τ).loc main_v108) = W11 m ρ c (Proc.devRef .tc main_v108)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v108 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.RunValue

end
-- ==== Proof.Spec.lean ====
/-
  The two functions that the tiled kernels and the whole-array reference both compute, entry by entry, on the
  extended reals.

  `matProd A B` is the product of an `M × K` by a `K × N` matrix: entry `(i, j)` is the sum over `l` of
  `A (i, l) · B (l, j)`.  A sum over the extended reals does not depend on how its terms are grouped, so a
  product formed block of rows by block of rows and one formed at once are the same function.

  `centreScaleClip h μ s` re-centres every row of `h` by the row `μ`, scales by the one factor `s` and clips
  below at zero: entry `(i, j)` is `max ((h (i, j) − μ (0, j)) · s) 0`.  It acts entry by entry, so a block of
  rows of the result depends only on the same block of rows of `h`.
-/
import Idealize.ShloMosaic.PureOps.Ideal
import Idealize.ShloMosaic.Lib.ValueIdx

noncomputable section

open Idealize.ShloMosaic Idealize.ShloMosaic.ValueIdx

namespace Cert.Gcn

/-- The product of an `M × K` by a `K × N` matrix, entry by entry. -/
def matProd {M K N : Nat} (A : FVec Ideal ⟨2, ![M, K]⟩ .f32) (B : FVec Ideal ⟨2, ![K, N]⟩ .f32) :
    FVec Ideal ⟨2, ![M, N]⟩ .f32 :=
  fun i => ∑ l : Fin K, A (ix2 (n0 := M) (n1 := K) (i 0) l) * B (ix2 (n0 := K) (n1 := N) l (i 1))

theorem matProd_apply {M K N : Nat} (A : FVec Ideal ⟨2, ![M, K]⟩ .f32) (B : FVec Ideal ⟨2, ![K, N]⟩ .f32)
    (i : Fin M) (j : Fin N) : matProd A B (ix2 i j) = ∑ l : Fin K, A (ix2 i l) * B (ix2 l j) := rfl

/-- Rows re-centred by a row, scaled by one factor, clipped below at zero. -/
def centreScaleClip {a b : Nat} (h : FVec Ideal ⟨2, ![a, b]⟩ .f32) (μ : FVec Ideal ⟨2, ![1, b]⟩ .f32) (s : Ideal .f32) :
    FVec Ideal ⟨2, ![a, b]⟩ .f32 :=
  fun i => max ((h i - μ (ix2 (n0 := 1) (n1 := b) (0 : Fin 1) (i 1))) * s) (Ideal.ofBits .f32 0x00000000#32)

theorem centreScaleClip_apply {a b : Nat} (h : FVec Ideal ⟨2, ![a, b]⟩ .f32) (μ : FVec Ideal ⟨2, ![1, b]⟩ .f32) (s : Ideal .f32)
    (i : Fin a) (j : Fin b) :
    centreScaleClip h μ s (ix2 i j) = max ((h (ix2 i j) - μ (ix2 (0 : Fin 1) j)) * s) (Ideal.ofBits .f32 0x00000000#32) := rfl

end Cert.Gcn

end
-- ==== Proof.LibDotRows.lean ====
/-
  The host's matrix product read by row and column, on the extended reals.

  For any extents: the product of an `M × K` by a `K × N` matrix (one contracted axis, no batch axis) read at an
  index whose row is `i` and whose column is `j` is the sum over `l` of `A (i, l) · B (l, j)`: the same sum a
  matrix unit forms into a zero accumulator.
-/
import Idealize.ShloMosaic.PureOps.Ideal.Laws
import Idealize.ShloMosaic.Lib.ValueIdx

noncomputable section

open Idealize.ShloMosaic Idealize.ShloMosaic.ValueIdx

namespace Cert.DotRows

/-- The product read at `(i, j)`.  The four hypotheses say which coordinate of each operand index is the row,
    the column and the contracted position; at a literal record each holds by computation. -/
theorem dotGeneral_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val) (hl1 : ∀ j k, (d.lhsIdx j k 1).val = (k ⟨0, by omega⟩).val)
    (hr0 : ∀ j k, (d.rhsIdx j k 0).val = (k ⟨0, by omega⟩).val) (hr1 : ∀ j k, (d.rhsIdx j k 1).val = (j 1).val)
    (A : FVec Ideal ⟨2, ![M, K]⟩ φ₁) (B : FVec Ideal ⟨2, ![K, N]⟩ φ₂) (i : Fin M) (j : Fin N) :
    Host.dotGeneral d none A B (ix2 i j) = ∑ l : Fin K, A (ix2 i l) * B (ix2 l j) := by
  show FloatOps.dotGeneral d none .single A B (ix2 i j) = _
  rw [Ideal.dotGeneral_apply, ← Equiv.sum_comp (contrEquiv1 d K hr hs).symm]
  refine Finset.sum_congr rfl fun l _ => ?_
  have e1 : d.lhsIdx (ix2 i j) ((contrEquiv1 d K hr hs).symm l) = ix2 i l := by
    funext a; apply Fin.ext
    match a with
    | ⟨0, _⟩ => exact hl0 _ _
    | ⟨1, _⟩ => exact (hl1 _ _).trans (contrEquiv1_symm_val d K hr hs l)
  have e2 : d.rhsIdx (ix2 i j) ((contrEquiv1 d K hr hs).symm l) = ix2 l j := by
    funext a; apply Fin.ext
    match a with
    | ⟨0, _⟩ => exact (hr0 _ _).trans (contrEquiv1_symm_val d K hr hs l)
    | ⟨1, _⟩ => exact hr1 _ _
  rw [e1, e2]

end Cert.DotRows

end
-- ==== Proof.RefBridge.lean ====
/-
  The whole-array program's products and normalisation steps are the specification's two functions.

  Each `dot_general` (one contracted axis, no batch axis) is `matProd` of its operands: entry `(i, j)` is the sum
  over `l` of `A (i, l) · B (l, j)`.  Each normalisation tail — subtract the broadcast row of means, multiply by the
  broadcast factor, take the maximum with a broadcast zero — is `centreScaleClip` of the features, the means row and
  the factor: entry `(i, j)` reads the row of means at `(0, j)` and the rank-0 factor at its one index.
-/
import proofs.«118178_j24773371364082_1_alg».proof.Proof.RefReadP
import proofs.«118178_j24773371364082_1_alg».proof.Proof.Spec
import proofs.«118178_j24773371364082_1_alg».proof.Proof.LibDotRows

noncomputable section

namespace Cert.ReferenceIdeal.Bridge

open Cert.ReferenceIdeal Cert.ReferenceIdeal.ReadP Idealize.ShloMosaic Idealize.ShloMosaic.ValueIdx

/-- The first layer's product. -/
theorem prod30 (x0 : (⟨S100000x512, .f32⟩ : BufTy).Contents (Elt Ideal)) (x2 : (⟨S512x32, .f32⟩ : BufTy).Contents (Elt Ideal)) :
    val_main_v30 (F := Ideal) x0 x2 = Cert.Gcn.matProd x0 x2 := by
  funext i
  obtain ⟨p, q, rfl⟩ : ∃ (p : Fin 100000) (q : Fin 32), i = ix2 p q := ⟨i 0, i 1, eq_ix2 i⟩
  unfold val_main_v30
  exact Cert.DotRows.dotGeneral_apply dot_S100000x512_S512x32_S100000x32_1_0_0_1_n_n rfl rfl (fun _ _ => rfl) (fun _ _ => rfl)
    (fun _ _ => rfl) (fun _ _ => rfl) x0 x2 p q

/-- The second layer's product. -/
theorem prod62 (x0 : (⟨S100000x512, .f32⟩ : BufTy).Contents (Elt Ideal)) (x1 : (⟨S2x3200000, .i32⟩ : BufTy).Contents (Elt Ideal)) (x2 : (⟨S512x32, .f32⟩ : BufTy).Contents (Elt Ideal)) (x3 : (⟨S32, .f32⟩ : BufTy).Contents (Elt Ideal)) (x4 : (⟨S32x32, .f32⟩ : BufTy).Contents (Elt Ideal)) :
    val_main_v62 (F := Ideal) x0 x1 x2 x3 x4 = Cert.Gcn.matProd (val_main_v61 (F := Ideal) x0 x1 x2 x3) x4 := by
  funext i
  obtain ⟨p, q, rfl⟩ : ∃ (p : Fin 100000) (q : Fin 32), i = ix2 p q := ⟨i 0, i 1, eq_ix2 i⟩
  unfold val_main_v62
  generalize val_main_v61 (F := Ideal) x0 x1 x2 x3 = y
  exact Cert.DotRows.dotGeneral_apply dot_S100000x32_S32x32_S100000x32_1_0_0_1_n_n rfl rfl (fun _ _ => rfl) (fun _ _ => rfl)
    (fun _ _ => rfl) (fun _ _ => rfl) y x4 p q

/-- The third layer's product. -/
theorem prod94 (x0 : (⟨S100000x512, .f32⟩ : BufTy).Contents (Elt Ideal)) (x1 : (⟨S2x3200000, .i32⟩ : BufTy).Contents (Elt Ideal)) (x2 : (⟨S512x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x40, .f32⟩ : BufTy).Contents (Elt Ideal)) :
    val_main_v94 (F := Ideal) x0 x1 x2 x3 x4 x5 x6 = Cert.Gcn.matProd (val_main_v93 (F := Ideal) x0 x1 x2 x3 x4 x5) x6 := by
  funext i
  obtain ⟨p, q, rfl⟩ : ∃ (p : Fin 100000) (q : Fin 40), i = ix2 p q := ⟨i 0, i 1, eq_ix2 i⟩
  unfold val_main_v94
  generalize val_main_v93 (F := Ideal) x0 x1 x2 x3 x4 x5 = y
  exact Cert.DotRows.dotGeneral_apply dot_S100000x32_S32x40_S100000x40_1_0_0_1_n_n rfl rfl (fun _ _ => rfl) (fun _ _ => rfl)
    (fun _ _ => rfl) (fun _ _ => rfl) y x6 p q

/-- The first normalisation tail. -/
theorem clip61 (x0 : (⟨S100000x512, .f32⟩ : BufTy).Contents (Elt Ideal)) (x1 : (⟨S2x3200000, .i32⟩ : BufTy).Contents (Elt Ideal)) (x2 : (⟨S512x32, .f32⟩ : BufTy).Contents (Elt Ideal)) (x3 : (⟨S32, .f32⟩ : BufTy).Contents (Elt Ideal)) :
    val_main_v61 (F := Ideal) x0 x1 x2 x3
      = Cert.Gcn.centreScaleClip (val_main_v46 (F := Ideal) x0 x1 x2 x3) (val_main_v50 (F := Ideal) x0 x1 x2 x3)
          (val_main_v58 (F := Ideal) x0 x1 x2 x3 ix0) := by
  funext i
  obtain ⟨p, q, rfl⟩ : ∃ (p : Fin 100000) (q : Fin 32), i = ix2 p q := ⟨i 0, i 1, eq_ix2 i⟩
  rw [val_main_v61_apply, val_main_v60_apply, val_main_v52_apply, val_main_v51_apply, val_main_v59_apply,
    val_main_call1_v0_apply, val_main_call1_cst_apply]
  have e1 : idx_main_v51 (ix2 p q) = ix2 (0 : Fin 1) q :=
    funext fun a => Fin.ext (by match a with | ⟨0, _⟩ => rfl | ⟨1, _⟩ => rfl)
  have e2 : idx_main_v59 (ix2 p q) = ix0 := funext fun a => a.elim0
  rw [e1, e2]
  rfl

/-- The second normalisation tail. -/
theorem clip93 (x0 : (⟨S100000x512, .f32⟩ : BufTy).Contents (Elt Ideal)) (x1 : (⟨S2x3200000, .i32⟩ : BufTy).Contents (Elt Ideal)) (x2 : (⟨S512x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) :
    val_main_v93 (F := Ideal) x0 x1 x2 x3 x4 x5
      = Cert.Gcn.centreScaleClip (val_main_v78 (F := Ideal) x0 x1 x2 x3 x4 x5) (val_main_v82 (F := Ideal) x0 x1 x2 x3 x4 x5)
          (val_main_v90 (F := Ideal) x0 x1 x2 x3 x4 x5 ix0) := by
  funext i
  obtain ⟨p, q, rfl⟩ : ∃ (p : Fin 100000) (q : Fin 32), i = ix2 p q := ⟨i 0, i 1, eq_ix2 i⟩
  rw [val_main_v93_apply, val_main_v92_apply, val_main_v84_apply, val_main_v83_apply, val_main_v91_apply,
    val_main_call2_v0_apply, val_main_call2_cst_apply]
  have e1 : idx_main_v83 (ix2 p q) = ix2 (0 : Fin 1) q :=
    funext fun a => Fin.ext (by match a with | ⟨0, _⟩ => rfl | ⟨1, _⟩ => rfl)
  have e2 : idx_main_v91 (ix2 p q) = ix0 := funext fun a => a.elim0
  rw [e1, e2]
  rfl

end Cert.ReferenceIdeal.Bridge

end
-- ==== Proof.LibMatRows.lean ====
/-
  Matrices read by row and column, on the extended reals.

  General lemmas, for any extents: a matrix product into a zero accumulator read at `(i, j)` as the sum over
  `l` of `A (i, l) · B (l, j)`; the sum of a matrix along its rows read at `i` as the sum of row `i`; a vector
  viewed as a one-column matrix; a one-column matrix spread over many columns; and two blocks of equal width
  set side by side.  Indices are built from their coordinates (`ix2`, `ix1`), so every lemma rewrites a term
  at a literal position.
-/
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.MatRows

variable {α : Type}

/-- A product of an `M × K` by a `K × N` matrix into a zero accumulator, read at `(i, j)`: the sum over the
    contracted position `l` of `A (i, l) · B (l, j)`.  The four hypotheses say which coordinate of each operand
    index is the row, the column and the contracted position; at a literal record each holds by computation. -/
theorem matmul_zero_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val) (hl1 : ∀ j k, (d.lhsIdx j k 1).val = (k ⟨0, by omega⟩).val)
    (hr0 : ∀ j k, (d.rhsIdx j k 0).val = (k ⟨0, by omega⟩).val) (hr1 : ∀ j k, (d.rhsIdx j k 1).val = (j 1).val)
    (A : FVec Ideal ⟨2, ![M, K]⟩ φ₁) (B : FVec Ideal ⟨2, ![K, N]⟩ φ₂) (i : Fin M) (j : Fin N) :
    matmul d none A B (constant ⟨2, ![M, N]⟩ .f32 0x00000000#32) (ix2 i j) = ∑ l : Fin K, A (ix2 i l) * B (ix2 l j) := by
  show FloatOps.matmul d none A B (constant ⟨2, ![M, N]⟩ .f32 0x00000000#32) (ix2 i j) = _
  rw [Ideal.matmul_constant_zero_apply, ← Equiv.sum_comp (contrEquiv1 d K hr hs).symm]
  refine Finset.sum_congr rfl fun l _ => ?_
  have e1 : d.lhsIdx (ix2 i j) ((contrEquiv1 d K hr hs).symm l) = ix2 i l := by
    funext a; apply Fin.ext
    match a with
    | ⟨0, _⟩ => exact hl0 _ _
    | ⟨1, _⟩ => exact (hl1 _ _).trans (contrEquiv1_symm_val d K hr hs l)
  have e2 : d.rhsIdx (ix2 i j) ((contrEquiv1 d K hr hs).symm l) = ix2 l j := by
    funext a; apply Fin.ext
    match a with
    | ⟨0, _⟩ => exact (hr0 _ _).trans (contrEquiv1_symm_val d K hr hs l)
    | ⟨1, _⟩ => exact hr1 _ _
  rw [e1, e2]

/-- The sum of an `a × b` matrix along its rows, read at `i`: the sum of row `i`. -/
theorem laneSum_apply {a b : Nat} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  rw [Ideal.multiReduction_add_single]
  show (∑ k : Fin b, src (h.lift (ix1 i) k)) = _
  refine Finset.sum_congr rfl fun k _ => congrArg src ?_
  funext d; apply Fin.ext
  match d with
  | ⟨0, _⟩ => rfl
  | ⟨1, _⟩ => rfl

/-- A vector of length `a` viewed as an `a × 1` matrix reads, at `(i, 0)`, the vector at `i`. -/
theorem colCast_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) := by
  refine shapeCast_apply v h (ix2 i z) (ix1 i) ?_
  rw [Shape.rowMajor_val_one, Shape.rowMajor_val_two]
  show i.val = i.val * 1 + z.val
  have := z.isLt; omega

/-- An `a × 1` matrix spread over `b` columns reads, at `(i, j)`, its one column at `i`. -/
theorem colBroadcast_apply {a b : Nat} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Two `a × w` blocks set side by side into an `a × n` matrix, `n = w + w`: column `j < w` of the result is
    column `j` of the first block. -/
theorem sideBySide_left {a w n : Nat} (hn : n = w + w) (x y : (⟨2, ![a, w]⟩ : Shape).Idx → α)
    (h : Shape.Concatenates (([⟨⟨2, ![a, w]⟩, x⟩, ⟨⟨2, ![a, w]⟩, y⟩] : List ((s : Shape) × (s.Idx → α))).map (·.1)) ⟨2, ![a, n]⟩ 1)
    (i : Fin a) (j : Fin w) (j' : Fin n) (hj : j'.val = j.val) :
    concatenate ⟨2, ![a, n]⟩ 1 [⟨⟨2, ![a, w]⟩, x⟩, ⟨⟨2, ![a, w]⟩, y⟩] h (ix2 i j') = x (ix2 i j) := by
  subst hn
  exact concatenate_ofFn_apply (t := ⟨2, ![a, w + w]⟩) (s₁ := ⟨2, ![a, w]⟩) 1 (N := 2) (fun n => (![x, y] : Fin 2 → _) n) h rfl w rfl
    (ix2 i j') 0 (by show j'.val / w = 0; rw [hj]; exact Nat.div_eq_of_lt j.isLt) (ix2 i j)
    (by show j.val = j'.val % w; rw [hj, Nat.mod_eq_of_lt j.isLt])
    (fun b hb => by
      match b with
      | ⟨0, _⟩ => rfl
      | ⟨1, _⟩ => exact absurd rfl hb)

/-- … and column `w + j` of the result is column `j` of the second block. -/
theorem sideBySide_right {a w n : Nat} (hn : n = w + w) (x y : (⟨2, ![a, w]⟩ : Shape).Idx → α)
    (h : Shape.Concatenates (([⟨⟨2, ![a, w]⟩, x⟩, ⟨⟨2, ![a, w]⟩, y⟩] : List ((s : Shape) × (s.Idx → α))).map (·.1)) ⟨2, ![a, n]⟩ 1)
    (i : Fin a) (j : Fin w) (j' : Fin n) (hj : j'.val = w + j.val) :
    concatenate ⟨2, ![a, n]⟩ 1 [⟨⟨2, ![a, w]⟩, x⟩, ⟨⟨2, ![a, w]⟩, y⟩] h (ix2 i j') = y (ix2 i j) := by
  subst hn
  have hw : 0 < w := by have := j.isLt; omega
  exact concatenate_ofFn_apply (t := ⟨2, ![a, w + w]⟩) (s₁ := ⟨2, ![a, w]⟩) 1 (N := 2) (fun n => (![x, y] : Fin 2 → _) n) h rfl w rfl
    (ix2 i j') 1 (by show j'.val / w = 1; rw [hj, Nat.add_div_left _ hw, Nat.div_eq_of_lt j.isLt]) (ix2 i j)
    (by show j.val = j'.val % w; rw [hj, Nat.add_mod_left, Nat.mod_eq_of_lt j.isLt])
    (fun b hb => by
      match b with
      | ⟨0, _⟩ => rfl
      | ⟨1, _⟩ => exact absurd rfl hb)

end Cert.MatRows

end
-- ==== Proof.RegionMat0.lean ====
/-
  The first tiled product: what its output array holds when the region ends.

  The rows are cut into 25 blocks of 4000.  At point `t` the body reads rows `4000·t … 4000·t + 3999` of the left
  matrix and the whole right matrix, forms their product into a zero accumulator, and writes it back as the same
  rows of the output.  Entry `(p, q)` of that block is the sum over `l` of `A (4000·t + p, l) · B (l, q)`, which
  is entry `(4000·t + p, q)` of the whole product; the 25 blocks cover every row, so the array ends as the product.
-/
import proofs.«118178_j24773371364082_1_alg».proof.Proof.Gen.KernelIdeal.Frame
import proofs.«118178_j24773371364082_1_alg».proof.Proof.Spec
import proofs.«118178_j24773371364082_1_alg».proof.Proof.LibMatRows
import Idealize.ShloMosaic.Lib.Pipeline.Value

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at point `t`: the left operand's and the output's at row block `t`, the right
    operand whole. Decided over the 25 points. -/
theorem blockAt : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's value at entry `(p, q)` of its block: the inner product of row `p` of the left block with column `q`
    of the right matrix (a change of float format is the identity on the extended reals). -/
theorem body_apply (x0 : Vec Ideal S4000x512 .f32) (x1 : Vec Ideal S512x32 .f32) (p : Fin 4000) (q : Fin 32) :
    k0_pay1 x0 x1 (ix2 p q) = ∑ l : Fin 512, x0 (ix2 p l) * x1 (ix2 l q) := by
  unfold k0_pay1
  exact Cert.MatRows.matmul_zero_apply dot_S4000x512_S512x32_S4000x32_1_0_0_1_n_n rfl rfl (fun _ _ => rfl) (fun _ _ => rfl)
    (fun _ _ => rfl) (fun _ _ => rfl) _ _ p q

/-- Entry `(p, q)` of block `t`, formed from block `t` of the left matrix and the whole right matrix, is the entry of
    the whole product at the same place of the array. -/
theorem block_entry (A : FVec Ideal S100000x512 .f32) (B : FVec Ideal S512x32 .f32) (t : Fin cfg0.N) (p : Fin 4000) (q : Fin 32) :
    (∑ l : Fin 512, A (((cfg0.win 0).blk t).view.emb (ix2 p l)) * B (((cfg0.win 1).blk t).view.emb (ix2 l q)))
      = Cert.Gcn.matProd A B (((cfg0.win 2).blk t).view.emb (ix2 p q)) := by
  obtain ⟨e0, e1, e2, e3, e4, e5⟩ := blockAt t
  show _ = ∑ l : Fin 512, A (ix2 ((((cfg0.win 2).blk t).view.emb (ix2 p q)) 0) l) * B (ix2 l ((((cfg0.win 2).blk t).view.emb (ix2 p q)) 1))
  refine Finset.sum_congr rfl fun l _ => ?_
  have h0 : ((cfg0.win 0).blk t).view.emb (ix2 p l) = ix2 ((((cfg0.win 2).blk t).view.emb (ix2 p q)) 0) l := by
    funext a; apply Fin.ext
    match a with
    | ⟨0, _⟩ => show win0_0.index t (0 : Fin 2) * 4000 + 1 * p.val = win0_2.index t (0 : Fin 2) * 4000 + 1 * p.val; omega
    | ⟨1, _⟩ => show win0_0.index t (1 : Fin 2) * 512 + 1 * l.val = l.val; omega
  have h1 : ((cfg0.win 1).blk t).view.emb (ix2 l q) = ix2 l ((((cfg0.win 2).blk t).view.emb (ix2 p q)) 1) := by
    funext a; apply Fin.ext
    match a with
    | ⟨0, _⟩ => show win0_1.index t (0 : Fin 2) * 512 + 1 * l.val = l.val; omega
    | ⟨1, _⟩ => show win0_1.index t (1 : Fin 2) * 32 + 1 * q.val = win0_2.index t (1 : Fin 2) * 32 + 1 * q.val; omega
  rw [h0, h1]
  rfl

/-- What point `t` writes back is block `t` of the whole product of the arrays the region finds. -/
theorem flushed_eq (c : Dev nD) (t : Fin cfg0.N) :
    (dat0 (F := Ideal) V c).flushed 2 t
      = ((cfg0.win 2).blk t).view.read (Elt Ideal) (Cert.Gcn.matProd (V c main_arg0) (V c main_arg2)) := by
  show (cfg0.win 2).cut (grid0.coords t) ((dat0 (F := Ideal) V c).after 2 t) = _
  rw [after0_2]
  unfold out0_2
  rw [View.canon_unit_zero origin]
  simp only [View.ld_unit_zero (S := S4000x512) origin, View.ld_unit_zero (S := S512x32) origin]
  funext j
  obtain ⟨p, q, rfl⟩ : ∃ (p : Fin 4000) (q : Fin 32), j = ix2 p q := ⟨j 0, j 1, eq_ix2 j⟩
  refine (body_apply (iblk0 V c 0 t) (iblk0 V c 1 t) p q).trans ?_
  exact block_entry (V c main_arg0) (V c main_arg2) t p q

/-- An index of the output array lies in point `t`'s block iff each coordinate lies in the block's range. -/
theorem mem_blk (t : Fin cfg0.N) (i : S100000x32.Idx) :
    i ∈ ((cfg0.win 2).blk t).view.set ↔ ∀ a : Fin 2, win0_2.index t a * S4000x32.size a ≤ (i a).val ∧ (i a).val < win0_2.index t a * S4000x32.size a + S4000x32.size a := by
  show i ∈ ((View.whole main_v30).slice (win0_2.rect t)).set ↔ _
  rw [View.set_slice_whole, Rect.mem_set_unit]
  exact Iff.rfl

/-- Every row lies in one of the 25 blocks: row `r` in block `r / 4000`. -/
theorem cover (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 25 := N_0
  let t : Fin cfg0.N := ⟨(i 0).val / 4000, by rw [hN]; omega⟩
  have ht : t.val = (i 0).val / 4000 := rfl
  obtain ⟨e0, e1, e2, e3, e4, e5⟩ := blockAt t
  refine ⟨t, flush0_2 t, ?_⟩
  rw [mem_blk]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 32 ≤ (i 1).val ∧ (i 1).val < win0_2.index t (1 : Fin 2) * 32 + 32; omega

/-- When the region ends its output array is the whole product of the arrays it found. -/
theorem arr (c : Dev nD) :
    (dat0 (F := Ideal) V c).arrAt 2 cfg0.N = Cert.Gcn.matProd (V c main_arg0) (V c main_arg2) :=
  (dat0 (F := Ideal) V c).arrAt_eq_of_cover 2 _ (fun t _ => flushed_eq V c t) cover

end Cert.KernelIdeal.Region0

end
-- ==== Proof.Carry.lean ====
/-
  Buffers that a step of the run leaves alone.

  Between two boundaries of the run a buffer changes only if a host operation of the stretch writes it, or it is an
  output array of the region.  The arguments are never written, and the source, target and
  edge-weight arrays are computed once, by the stretches before the first region.  Each lemma here says that at
  boundary `k` every buffer of a short list — those still to be read later — holds what it held at boundary `k − 1`;
  an argument that is an input of a region is dropped from the lists once that region has read it.
-/
import proofs.«118178_j24773371364082_1_alg».proof.Proof.Gen.KernelIdeal.Frame

noncomputable section

namespace Cert.KernelIdeal.Carry

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- Read after boundary 3: the operands of the first product, the biases and the later weight matrices. -/
abbrev upTo3 : List (Ref sig .tc) := [main_arg0, main_arg2, main_arg3, main_arg4, main_arg5, main_arg6, main_arg7]

/-- Read after boundary 4, the first product done: the biases, the later weight matrices, and the source, target and
    edge-weight arrays that the first three stretches compute. -/
abbrev upTo4 : List (Ref sig .tc) := [main_arg3, main_arg4, main_arg5, main_arg6, main_arg7, main_v5, main_v6, main_v29]

/-- Read after boundary 6, the first layer's bias added. -/
abbrev upTo6 : List (Ref sig .tc) := [main_arg4, main_arg5, main_arg6, main_arg7, main_v5, main_v6, main_v29]

/-- Read after boundary 7, the second product done. -/
abbrev upTo7 : List (Ref sig .tc) := [main_arg5, main_arg6, main_arg7, main_v5, main_v6, main_v29]

/-- Read after boundary 9, the second layer's bias added. -/
abbrev upTo9 : List (Ref sig .tc) := [main_arg6, main_arg7, main_v5, main_v6, main_v29]

/-- Read after boundary 10, the third product done. -/
abbrev upTo10 : List (Ref sig .tc) := [main_arg7, main_v5, main_v6, main_v29]

/-- No operation of the named stretch writes the buffer: decided operation by operation. -/
macro "not_written " ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

/-- The stretch between boundaries 0 and 1 writes none of them. -/
theorem keep1 (c : Dev nD) : (upTo3 : List (Ref sig .tc)).Forall fun b =>
    W1 m ρ c (Proc.devRef .tc b) = W0 m ρ c (Proc.devRef .tc b) := by
  simp only [upTo3, List.Forall]
  repeat' apply And.intro
  all_goals not_written hostOps0

/-- The stretch between boundaries 1 and 2 writes none of them. -/
theorem keep2 (c : Dev nD) : (upTo3 : List (Ref sig .tc)).Forall fun b =>
    W2 m ρ c (Proc.devRef .tc b) = W1 m ρ c (Proc.devRef .tc b) := by
  simp only [upTo3, List.Forall]
  repeat' apply And.intro
  all_goals not_written hostOps0_1

/-- The stretch between boundaries 2 and 3 writes none of them. -/
theorem keep3 (c : Dev nD) : (upTo3 : List (Ref sig .tc)).Forall fun b =>
    W3 m ρ c (Proc.devRef .tc b) = W2 m ρ c (Proc.devRef .tc b) := by
  simp only [upTo3, List.Forall]
  repeat' apply And.intro
  all_goals not_written hostOps0_2

/-- None of them is an array of the first product, whose output is its own buffer, which leaves every other buffer as it found it. -/
theorem keep4 (c : Dev nD) : (upTo4 : List (Ref sig .tc)).Forall fun b =>
    W4 m ρ c (Proc.devRef .tc b) = W3 m ρ c (Proc.devRef .tc b) := by
  simp only [upTo4, List.Forall]
  repeat' apply And.intro
  all_goals exact W4_of_ne m ρ c _ (by decide)

/-- The stretch between boundaries 4 and 5 writes none of them. -/
theorem keep5 (c : Dev nD) : (upTo6 : List (Ref sig .tc)).Forall fun b =>
    W5 m ρ c (Proc.devRef .tc b) = W4 m ρ c (Proc.devRef .tc b) := by
  simp only [upTo6, List.Forall]
  repeat' apply And.intro
  all_goals not_written hostOps1

/-- None of them is an array of the first normalisation step, which leaves every other buffer as it found it. -/
theorem keep6 (c : Dev nD) : (upTo6 : List (Ref sig .tc)).Forall fun b =>
    W6 m ρ c (Proc.devRef .tc b) = W5 m ρ c (Proc.devRef .tc b) := by
  simp only [upTo6, List.Forall]
  repeat' apply And.intro
  all_goals exact W6_of_ne m ρ c _ (by decide)

/-- None of them is an array of the second product, which leaves every other buffer as it found it. -/
theorem keep7 (c : Dev nD) : (upTo7 : List (Ref sig .tc)).Forall fun b =>
    W7 m ρ c (Proc.devRef .tc b) = W6 m ρ c (Proc.devRef .tc b) := by
  simp only [upTo7, List.Forall]
  repeat' apply And.intro
  all_goals exact W7_of_ne m ρ c _ (by decide)

/-- The stretch between boundaries 7 and 8 writes none of them. -/
theorem keep8 (c : Dev nD) : (upTo9 : List (Ref sig .tc)).Forall fun b =>
    W8 m ρ c (Proc.devRef .tc b) = W7 m ρ c (Proc.devRef .tc b) := by
  simp only [upTo9, List.Forall]
  repeat' apply And.intro
  all_goals not_written hostOps3

/-- None of them is an array of the second normalisation step, which leaves every other buffer as it found it. -/
theorem keep9 (c : Dev nD) : (upTo9 : List (Ref sig .tc)).Forall fun b =>
    W9 m ρ c (Proc.devRef .tc b) = W8 m ρ c (Proc.devRef .tc b) := by
  simp only [upTo9, List.Forall]
  repeat' apply And.intro
  all_goals exact W9_of_ne m ρ c _ (by decide)

/-- None of them is an array of the third product, which leaves every other buffer as it found it. -/
theorem keep10 (c : Dev nD) : (upTo10 : List (Ref sig .tc)).Forall fun b =>
    W10 m ρ c (Proc.devRef .tc b) = W9 m ρ c (Proc.devRef .tc b) := by
  simp only [upTo10, List.Forall]
  repeat' apply And.intro
  all_goals exact W10_of_ne m ρ c _ (by decide)

/-- Reading one buffer's fact out of a list's. -/
theorem pick {P : Ref sig .tc → Prop} {l : List (Ref sig .tc)} (h : l.Forall P) (b : Ref sig .tc) (hb : b ∈ l) : P b :=
  (List.forall_iff_forall_mem.mp h) b hb

end Cert.KernelIdeal.Carry

end
-- ==== Proof.ChainA.lean ====
/-
  The tiled program's buffers at the boundaries before and after its first product.

  The stretches before the first region compute, from the edge list alone, the source and target index arrays (the
  edges followed by one self loop per node) and the edge weights (the product of the inverse square roots of the two
  end points' degrees): the same operations, on the same argument, as the whole-array program's, so each buffer holds
  that program's stage of the launch contents.  No operation writes an argument.  The first region then leaves its
  output array at the product of the feature matrix and the first weight matrix, which is the whole-array program's
  first `dot_general`.
-/
import proofs.«118178_j24773371364082_1_alg».proof.Proof.Gen.KernelIdeal.Frame
import proofs.«118178_j24773371364082_1_alg».proof.Proof.RefReadP
import proofs.«118178_j24773371364082_1_alg».proof.Proof.RefBridge
import proofs.«118178_j24773371364082_1_alg».proof.Proof.RegionMat0
import proofs.«118178_j24773371364082_1_alg».proof.Proof.Carry

noncomputable section

namespace Cert.KernelIdeal.Chain

open Cert.KernelIdeal Cert.KernelIdeal.Gen Idealize.ShloMosaic Idealize.ShloMosaic.TcCoe Idealize.ShloMosaic.ValueIdx Idealize.SL.Sem
open Idealize.ShloMosaic.StableHlo
open Cert.ReferenceIdeal.ReadP

variable (m : (ℓ : Loc nD τ sig) → Buf (Elt Ideal) ℓ) (ρ : Dev nD → PrngReg)

/-- The launch contents of the arguments on core `c`. -/
abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)
abbrev a4 (c : Dev nD) := m ((c.tc : Thread nD τ).loc main_arg4)
abbrev a5 (c : Dev nD) := m ((c.tc : Thread nD τ).loc main_arg5)
abbrev a6 (c : Dev nD) := m ((c.tc : Thread nD τ).loc main_arg6)
abbrev a7 (c : Dev nD) := m ((c.tc : Thread nD τ).loc main_arg7)

/-! ## Boundary 3: the first region's entry -/

/-- An argument still to be read holds its launch contents. -/
theorem arg_at3 (c : Dev nD) (b : Ref sig .tc) (hb : b ∈ Carry.upTo3) :
    W3 m ρ c (Proc.devRef .tc b) = m ((c.tc : Thread nD τ).loc b) :=
  (Carry.pick (Carry.keep3 m ρ c) b hb).trans ((Carry.pick (Carry.keep2 m ρ c) b hb).trans (Carry.pick (Carry.keep1 m ρ c) b hb))

/-! The three stretches before the first region are read one at a time, the contents they start from kept as a
    variable, so that each reading involves one stretch's operations only. -/

/-- After the first stretch: the source index array (the edges' first row, then the self loops). -/
theorem src_at1 (c : Dev nD) : W1 m ρ c (Proc.devRef .tc main_v5) = val_main_v3 (F := Ideal) (a1 m c) := by
  show StableHlo.after hostOps0 (W0 m ρ c) (Proc.devRef .tc main_v5) = _
  after_results
  rfl

/-- After the first stretch: the target index array (the edges' second row, then the self loops). -/
theorem dst_at1 (c : Dev nD) : W1 m ρ c (Proc.devRef .tc main_v6) = val_main_v6 (F := Ideal) (a1 m c) := by
  show StableHlo.after hostOps0 (W0 m ρ c) (Proc.devRef .tc main_v6) = _
  after_results
  rfl

/-- After the first stretch: which nodes have a positive degree (the degree is a sum of ones over the target array). -/
theorem pos_at1 (c : Dev nD) : W1 m ρ c (Proc.devRef .tc main_v12) = val_main_v12 (F := Ideal) (a1 m c) := by
  show StableHlo.after hostOps0 (W0 m ρ c) (Proc.devRef .tc main_v12) = _
  after_results
  rfl

/-- After the first stretch: the inverse square roots of the degrees. -/
theorem rsq_at1 (c : Dev nD) : W1 m ρ c (Proc.devRef .tc main_v13) = val_main_v13 (F := Ideal) (a1 m c) := by
  show StableHlo.after hostOps0 (W0 m ρ c) (Proc.devRef .tc main_v13) = _
  after_results
  rfl

/-- After the first stretch: the zero that replaces the inverse square root at a node of degree zero. -/
theorem zero_at1 (c : Dev nD) : W1 m ρ c (Proc.devRef .tc main_cst_2) = val_main_cst_2 (F := Ideal) := by
  show StableHlo.after hostOps0 (W0 m ρ c) (Proc.devRef .tc main_cst_2) = _
  after_results
  rfl

/-! The `where` call reads and writes its buffers through typed references, whose box and unbox are transports along
    the buffer's type equation; each is the identity, the two types being the same. -/

theorem unbox_pos (v : (⟨S100000, .i1⟩ : BufTy).Contents (Elt Ideal)) :
    (TRef.of (sig := sig) (T := ⟨S100000, .i1⟩) main_v12).ofBuf v = v := eq_of_heq (cast_heq _ v)
theorem unbox_rsq (v : (⟨S100000, .f32⟩ : BufTy).Contents (Elt Ideal)) :
    (TRef.of (sig := sig) (T := ⟨S100000, .f32⟩) main_v13).ofBuf v = v := eq_of_heq (cast_heq _ v)
theorem unbox_zero (v : (⟨S_, .f32⟩ : BufTy).Contents (Elt Ideal)) :
    (TRef.of (sig := sig) (T := ⟨S_, .f32⟩) main_cst_2).ofBuf v = v := eq_of_heq (cast_heq _ v)
theorem unbox_conv (v : (⟨S_, .f32⟩ : BufTy).Contents (Elt Ideal)) :
    (TRef.of (sig := sig) (T := ⟨S_, .f32⟩) main_call0_v0).ofBuf v = v := eq_of_heq (cast_heq _ v)
theorem box_conv (v : (⟨S_, .f32⟩ : BufTy).Contents (Elt Ideal)) :
    (TRef.of (sig := sig) (T := ⟨S_, .f32⟩) main_call0_v0).toBuf v = v := eq_of_heq (cast_heq _ v)
theorem unbox_spread (v : (⟨S100000, .f32⟩ : BufTy).Contents (Elt Ideal)) :
    (TRef.of (sig := sig) (T := ⟨S100000, .f32⟩) main_call0_v1).ofBuf v = v := eq_of_heq (cast_heq _ v)
theorem box_spread (v : (⟨S100000, .f32⟩ : BufTy).Contents (Elt Ideal)) :
    (TRef.of (sig := sig) (T := ⟨S100000, .f32⟩) main_call0_v1).toBuf v = v := eq_of_heq (cast_heq _ v)
theorem box_dinv (v : (⟨S100000, .f32⟩ : BufTy).Contents (Elt Ideal)) :
    (TRef.of (sig := sig) (T := ⟨S100000, .f32⟩) main_v14).toBuf v = v := eq_of_heq (cast_heq _ v)

/-- After the second stretch: the inverse square root of the degree where it is positive, zero elsewhere. -/
theorem dinv_at2 (c : Dev nD) : W2 m ρ c (Proc.devRef .tc main_v14) = val_main_v14 (F := Ideal) (a1 m c) := by
  show StableHlo.after hostOps0_1 (W1 m ρ c) (Proc.devRef .tc main_v14) = _
  generalize hX : W1 m ρ c = X
  after_results
  subst hX
  rw [pos_at1 m ρ c, rsq_at1 m ρ c, zero_at1 m ρ c]
  unfold val_main_v14 val_main_call0_v1 val_main_call0_v0
  generalize val_main_v12 (F := Ideal) (a1 m c) = p
  generalize val_main_v13 (F := Ideal) (a1 m c) = q
  rw [unbox_pos, unbox_rsq, unbox_zero, box_conv, unbox_conv, box_spread, unbox_spread, box_dinv]

theorem src_at2 (c : Dev nD) : W2 m ρ c (Proc.devRef .tc main_v5) = val_main_v3 (F := Ideal) (a1 m c) :=
  (by not_written hostOps0_1 : W2 m ρ c (Proc.devRef .tc main_v5) = W1 m ρ c (Proc.devRef .tc main_v5)).trans (src_at1 m ρ c)
theorem dst_at2 (c : Dev nD) : W2 m ρ c (Proc.devRef .tc main_v6) = val_main_v6 (F := Ideal) (a1 m c) :=
  (by not_written hostOps0_1 : W2 m ρ c (Proc.devRef .tc main_v6) = W1 m ρ c (Proc.devRef .tc main_v6)).trans (dst_at1 m ρ c)

theorem src_at3 (c : Dev nD) : W3 m ρ c (Proc.devRef .tc main_v5) = val_main_v3 (F := Ideal) (a1 m c) :=
  (by not_written hostOps0_2 : W3 m ρ c (Proc.devRef .tc main_v5) = W2 m ρ c (Proc.devRef .tc main_v5)).trans (src_at2 m ρ c)
theorem dst_at3 (c : Dev nD) : W3 m ρ c (Proc.devRef .tc main_v6) = val_main_v6 (F := Ideal) (a1 m c) :=
  (by not_written hostOps0_2 : W3 m ρ c (Proc.devRef .tc main_v6) = W2 m ρ c (Proc.devRef .tc main_v6)).trans (dst_at2 m ρ c)

set_option maxHeartbeats 1000000 in
/-- The edge weights: the product of the two end points' inverse square roots of the degree. -/
theorem wgt_at3 (c : Dev nD) : W3 m ρ c (Proc.devRef .tc main_v29) = val_main_v29 (F := Ideal) (a1 m c) := by
  show StableHlo.after hostOps0_2 (W2 m ρ c) (Proc.devRef .tc main_v29) = _
  generalize hX : W2 m ρ c = X
  after_results_simp
  subst hX
  rw [dinv_at2 m ρ c, src_at2 m ρ c, dst_at2 m ρ c]
  rfl

/-! ## Boundary 4: the first product done -/

theorem arg_at4 (c : Dev nD) (b : Ref sig .tc) (hb : b ∈ Carry.upTo4) (hb3 : b ∈ Carry.upTo3) :
    W4 m ρ c (Proc.devRef .tc b) = m ((c.tc : Thread nD τ).loc b) :=
  (Carry.pick (Carry.keep4 m ρ c) b hb).trans (arg_at3 m ρ c b hb3)

theorem src_at4 (c : Dev nD) : W4 m ρ c (Proc.devRef .tc main_v5) = val_main_v3 (F := Ideal) (a1 m c) :=
  (Carry.pick (Carry.keep4 m ρ c) main_v5 (by decide)).trans (src_at3 m ρ c)
theorem dst_at4 (c : Dev nD) : W4 m ρ c (Proc.devRef .tc main_v6) = val_main_v6 (F := Ideal) (a1 m c) :=
  (Carry.pick (Carry.keep4 m ρ c) main_v6 (by decide)).trans (dst_at3 m ρ c)
theorem wgt_at4 (c : Dev nD) : W4 m ρ c (Proc.devRef .tc main_v29) = val_main_v29 (F := Ideal) (a1 m c) :=
  (Carry.pick (Carry.keep4 m ρ c) main_v29 (by decide)).trans (wgt_at3 m ρ c)

/-- The first region's output: the feature matrix times the first weight matrix. -/
theorem prod_at4 (c : Dev nD) : W4 m ρ c (Proc.devRef .tc main_v30) = val_main_v30 (F := Ideal) (a0 m c) (a2 m c) := by
  refine (W4_arr m ρ c 2).trans ((Region0.arr (V3 m ρ) c).trans ?_)
  show Cert.Gcn.matProd (W3 m ρ c (Proc.devRef .tc main_arg0)) (W3 m ρ c (Proc.devRef .tc main_arg2)) = _
  rw [arg_at3 m ρ c main_arg0 (by decide), arg_at3 m ρ c main_arg2 (by decide)]
  exact (Cert.ReferenceIdeal.Bridge.prod30 _ _).symm

end Cert.KernelIdeal.Chain

end
-- ==== Proof.RegionPn1.lean ====
/-
  The first tiled normalisation step: what its output array holds when the region ends.

  The rows are cut into 10 blocks of 10000.  At point `t` the body reads rows `10000·t … 10000·t + 9999` of the
  features, the whole row of means and the one scale factor; it subtracts the means row from every row of the block,
  multiplies by the factor, clips below at zero, and writes the result back as the same rows of the output.  The
  body acts entry by entry, so entry `(p, q)` of the block it writes is entry `(10000·t + p, q)` of the same function
  of the whole array; the 10 blocks cover every row.
-/
import proofs.«118178_j24773371364082_1_alg».proof.Proof.Gen.KernelIdeal.Frame
import proofs.«118178_j24773371364082_1_alg».proof.Proof.Spec
import Idealize.ShloMosaic.Lib.Pipeline.Value
import Idealize.ShloMosaic.Lib.ValueLayout

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- A `[1, 1]` array spread over an `[a, b]` block reads its one entry everywhere. -/
theorem unitBroadcast_apply {α : Type} {a b : ℕ} (v : (⟨2, ![1, 1]⟩ : Shape).Idx → α) (h : (⟨2, ![1, 1]⟩ : Shape).Broadcasts ⟨2, ![a, b]⟩)
    (p : Fin a) (q : Fin b) : broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- Where each window's block sits at point `t`: the features' and the output's at row block `t`, the means row and
    the factor whole. Decided over the 10 points. -/
theorem blockAt : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The body's value at entry `(p, q)` of its block. -/
theorem body_apply (x0 : Vec Ideal S10000x32 .f32) (x1 : Vec Ideal S1x32 .f32) (x2 : Vec Ideal S1x1 .f32) (p : Fin 10000) (q : Fin 32) :
    k1_pay1 x0 x1 x2 (ix2 p q)
      = max ((x0 (ix2 p q) - x1 (ix2 (0 : Fin 1) q)) * x2 (ix2 (0 : Fin 1) (0 : Fin 1))) (Ideal.ofBits .f32 0x00000000#32) := by
  unfold k1_pay1
  rw [shapeCast_self, shapeCast_self, shapeCast_self]
  show max ((x0 (ix2 p q) - broadcastTo S10000x32 x1 broadcasts_S1x32_S10000x32 (ix2 p q))
      * broadcastTo S10000x32 x2 broadcasts_S1x1_S10000x32 (ix2 p q)) (Ideal.ofBits .f32 0x00000000#32) = _
  rw [broadcastTo_1b_ab_apply, unitBroadcast_apply]

/-- Entry `(p, q)` of block `t`, formed from block `t` of the features, the means row and the factor, is the entry of
    the re-centred, scaled and clipped whole array at the same place. -/
theorem block_entry (H : FVec Ideal S100000x32 .f32) (M : FVec Ideal S1x32 .f32) (Sc : FVec Ideal S1x1 .f32)
    (t : Fin cfg1.N) (p : Fin 10000) (q : Fin 32) :
    max ((H (((cfg1.win 0).blk t).view.emb (ix2 p q)) - M (((cfg1.win 1).blk t).view.emb (ix2 (0 : Fin 1) q)))
        * Sc (((cfg1.win 2).blk t).view.emb (ix2 (0 : Fin 1) (0 : Fin 1)))) (Ideal.ofBits .f32 0x00000000#32)
      = Cert.Gcn.centreScaleClip H M (Sc (ix2 (0 : Fin 1) (0 : Fin 1))) (((cfg1.win 3).blk t).view.emb (ix2 p q)) := by
  obtain ⟨e0, e1, e2, e3, e4, e5, e6, e7⟩ := blockAt t
  show _ = max ((H (((cfg1.win 3).blk t).view.emb (ix2 p q)) - M (ix2 (0 : Fin 1) ((((cfg1.win 3).blk t).view.emb (ix2 p q)) 1)))
        * Sc (ix2 (0 : Fin 1) (0 : Fin 1))) (Ideal.ofBits .f32 0x00000000#32)
  have h0 : ((cfg1.win 0).blk t).view.emb (ix2 p q) = ((cfg1.win 3).blk t).view.emb (ix2 p q) := by
    funext a; apply Fin.ext
    match a with
    | ⟨0, _⟩ => show win1_0.index t (0 : Fin 2) * 10000 + 1 * p.val = win1_3.index t (0 : Fin 2) * 10000 + 1 * p.val; omega
    | ⟨1, _⟩ => show win1_0.index t (1 : Fin 2) * 32 + 1 * q.val = win1_3.index t (1 : Fin 2) * 32 + 1 * q.val; omega
  have h1 : ((cfg1.win 1).blk t).view.emb (ix2 (0 : Fin 1) q) = ix2 (0 : Fin 1) ((((cfg1.win 3).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 32 + 1 * q.val = win1_3.index t (1 : Fin 2) * 32 + 1 * q.val; omega
  have h2 : ((cfg1.win 2).blk t).view.emb (ix2 (0 : Fin 1) (0 : Fin 1)) = ix2 (0 : Fin 1) (0 : Fin 1) := by
    funext a; apply Fin.ext
    match a with
    | ⟨0, _⟩ => show win1_2.index t (0 : Fin 2) * 1 + 1 * 0 = 0; omega
    | ⟨1, _⟩ => show win1_2.index t (1 : Fin 2) * 1 + 1 * 0 = 0; omega
  rw [h0, h1, h2]
  rfl

/-- What point `t` writes back is block `t` of the re-centred, scaled and clipped whole array. -/
theorem flushed_eq (c : Dev nD) (t : Fin cfg1.N) :
    (dat1 (F := Ideal) V c).flushed 3 t
      = ((cfg1.win 3).blk t).view.read (Elt Ideal)
          (Cert.Gcn.centreScaleClip (V c main_v46) (V c main_v50) (V c main_v59 (ix2 (0 : Fin 1) (0 : Fin 1)))) := by
  show (cfg1.win 3).cut (grid1.coords t) ((dat1 (F := Ideal) V c).after 3 t) = _
  rw [after1_3]
  unfold out1_3
  rw [View.canon_unit_zero origin]
  simp only [View.ld_unit_zero (S := S10000x32) origin, View.ld_unit_zero (S := S1x32) origin, View.ld_unit_zero (S := S1x1) origin]
  funext j
  obtain ⟨p, q, rfl⟩ : ∃ (p : Fin 10000) (q : Fin 32), j = ix2 p q := ⟨j 0, j 1, eq_ix2 j⟩
  refine (body_apply (iblk1 V c 0 t) (iblk1 V c 1 t) (iblk1 V c 2 t) p q).trans ?_
  exact block_entry (V c main_v46) (V c main_v50) (V c main_v59) t p q

/-- An index of the output array lies in point `t`'s block iff each coordinate lies in the block's range. -/
theorem mem_blk (t : Fin cfg1.N) (i : S100000x32.Idx) :
    i ∈ ((cfg1.win 3).blk t).view.set ↔ ∀ a : Fin 2, win1_3.index t a * S10000x32.size a ≤ (i a).val ∧ (i a).val < win1_3.index t a * S10000x32.size a + S10000x32.size a := by
  show i ∈ ((View.whole main_v60).slice (win1_3.rect t)).set ↔ _
  rw [View.set_slice_whole, Rect.mem_set_unit]
  exact Iff.rfl

/-- Every row lies in one of the 10 blocks: row `r` in block `r / 10000`. -/
theorem cover (i : S100000x32.Idx) : ∃ t : Fin cfg1.N, (cfg1.win 3).flush t = true ∧ i ∈ ((cfg1.win 3).blk t).view.set := by
  have hi0 : (i 0).val < 100000 := (i 0).isLt
  have hi1 : (i 1).val < 32 := (i 1).isLt
  have hN : cfg1.N = 10 := N_1
  let t : Fin cfg1.N := ⟨(i 0).val / 10000, by rw [hN]; omega⟩
  have ht : t.val = (i 0).val / 10000 := rfl
  obtain ⟨e0, e1, e2, e3, e4, e5, e6, e7⟩ := blockAt t
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 32 ≤ (i 1).val ∧ (i 1).val < win1_3.index t (1 : Fin 2) * 32 + 32; omega

/-- When the region ends its output array is the re-centred, scaled and clipped array it found. -/
theorem arr (c : Dev nD) :
    (dat1 (F := Ideal) V c).arrAt 3 cfg1.N
      = Cert.Gcn.centreScaleClip (V c main_v46) (V c main_v50) (V c main_v59 (ix2 (0 : Fin 1) (0 : Fin 1))) :=
  (dat1 (F := Ideal) V c).arrAt_eq_of_cover 3 _ (fun t _ => flushed_eq V c t) cover

end Cert.KernelIdeal.Region1

end
-- ==== Proof.RegionMat2.lean ====
/-
  The second tiled product: what its output array holds when the region ends.

  The rows are cut into 25 blocks of 4000.  At point `t` the body reads rows `4000·t … 4000·t + 3999` of the left
  matrix and the whole right matrix, forms their product into a zero accumulator, and writes it back as the same
  rows of the output.  Entry `(p, q)` of that block is the sum over `l` of `A (4000·t + p, l) · B (l, q)`, which
  is entry `(4000·t + p, q)` of the whole product; the 25 blocks cover every row, so the array ends as the product.
-/
import proofs.«118178_j24773371364082_1_alg».proof.Proof.Gen.KernelIdeal.Frame
import proofs.«118178_j24773371364082_1_alg».proof.Proof.Spec
import proofs.«118178_j24773371364082_1_alg».proof.Proof.LibMatRows
import Idealize.ShloMosaic.Lib.Pipeline.Value

noncomputable section

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at point `t`: the left operand's and the output's at row block `t`, the right
    operand whole. Decided over the 25 points. -/
theorem blockAt : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's value at entry `(p, q)` of its block: the inner product of row `p` of the left block with column `q`
    of the right matrix (a change of float format, and a shape cast of a block to its own shape, are the identity). -/
theorem body_apply (x0 : Vec Ideal S4000x32 .f32) (x1 : Vec Ideal S32x32 .f32) (p : Fin 4000) (q : Fin 32) :
    k2_pay1 x0 x1 (ix2 p q) = ∑ l : Fin 32, x0 (ix2 p l) * x1 (ix2 l q) := by
  unfold k2_pay1
  rw [shapeCast_self]
  exact Cert.MatRows.matmul_zero_apply dot_S4000x32_S32x32_S4000x32_1_0_0_1_n_n rfl rfl (fun _ _ => rfl) (fun _ _ => rfl)
    (fun _ _ => rfl) (fun _ _ => rfl) _ _ p q

/-- Entry `(p, q)` of block `t`, formed from block `t` of the left matrix and the whole right matrix, is the entry of
    the whole product at the same place of the array. -/
theorem block_entry (A : FVec Ideal S100000x32 .f32) (B : FVec Ideal S32x32 .f32) (t : Fin cfg2.N) (p : Fin 4000) (q : Fin 32) :
    (∑ l : Fin 32, A (((cfg2.win 0).blk t).view.emb (ix2 p l)) * B (((cfg2.win 1).blk t).view.emb (ix2 l q)))
      = Cert.Gcn.matProd A B (((cfg2.win 2).blk t).view.emb (ix2 p q)) := by
  obtain ⟨e0, e1, e2, e3, e4, e5⟩ := blockAt t
  show _ = ∑ l : Fin 32, A (ix2 ((((cfg2.win 2).blk t).view.emb (ix2 p q)) 0) l) * B (ix2 l ((((cfg2.win 2).blk t).view.emb (ix2 p q)) 1))
  refine Finset.sum_congr rfl fun l _ => ?_
  have h0 : ((cfg2.win 0).blk t).view.emb (ix2 p l) = ix2 ((((cfg2.win 2).blk t).view.emb (ix2 p q)) 0) l := by
    funext a; apply Fin.ext
    match a with
    | ⟨0, _⟩ => show win2_0.index t (0 : Fin 2) * 4000 + 1 * p.val = win2_2.index t (0 : Fin 2) * 4000 + 1 * p.val; omega
    | ⟨1, _⟩ => show win2_0.index t (1 : Fin 2) * 32 + 1 * l.val = l.val; omega
  have h1 : ((cfg2.win 1).blk t).view.emb (ix2 l q) = ix2 l ((((cfg2.win 2).blk t).view.emb (ix2 p q)) 1) := by
    funext a; apply Fin.ext
    match a with
    | ⟨0, _⟩ => show win2_1.index t (0 : Fin 2) * 32 + 1 * l.val = l.val; omega
    | ⟨1, _⟩ => show win2_1.index t (1 : Fin 2) * 32 + 1 * q.val = win2_2.index t (1 : Fin 2) * 32 + 1 * q.val; omega
  rw [h0, h1]
  rfl

/-- What point `t` writes back is block `t` of the whole product of the arrays the region finds. -/
theorem flushed_eq (c : Dev nD) (t : Fin cfg2.N) :
    (dat2 (F := Ideal) V c).flushed 2 t
      = ((cfg2.win 2).blk t).view.read (Elt Ideal) (Cert.Gcn.matProd (V c main_v60) (V c main_arg4)) := by
  show (cfg2.win 2).cut (grid2.coords t) ((dat2 (F := Ideal) V c).after 2 t) = _
  rw [after2_2]
  unfold out2_2
  rw [View.canon_unit_zero origin]
  simp only [View.ld_unit_zero (S := S4000x32) origin, View.ld_unit_zero (S := S32x32) origin]
  funext j
  obtain ⟨p, q, rfl⟩ : ∃ (p : Fin 4000) (q : Fin 32), j = ix2 p q := ⟨j 0, j 1, eq_ix2 j⟩
  refine (body_apply (iblk2 V c 0 t) (iblk2 V c 1 t) p q).trans ?_
  exact block_entry (V c main_v60) (V c main_arg4) t p q

/-- An index of the output array lies in point `t`'s block iff each coordinate lies in the block's range. -/
theorem mem_blk (t : Fin cfg2.N) (i : S100000x32.Idx) :
    i ∈ ((cfg2.win 2).blk t).view.set ↔ ∀ a : Fin 2, win2_2.index t a * S4000x32.size a ≤ (i a).val ∧ (i a).val < win2_2.index t a * S4000x32.size a + S4000x32.size a := by
  show i ∈ ((View.whole main_v61).slice (win2_2.rect t)).set ↔ _
  rw [View.set_slice_whole, Rect.mem_set_unit]
  exact Iff.rfl

/-- Every row lies in one of the 25 blocks: row `r` in block `r / 4000`. -/
theorem cover (i : S100000x32.Idx) : ∃ t : Fin cfg2.N, (cfg2.win 2).flush t = true ∧ i ∈ ((cfg2.win 2).blk t).view.set := by
  have hi0 : (i 0).val < 100000 := (i 0).isLt
  have hi1 : (i 1).val < 32 := (i 1).isLt
  have hN : cfg2.N = 25 := N_2
  let t : Fin cfg2.N := ⟨(i 0).val / 4000, by rw [hN]; omega⟩
  have ht : t.val = (i 0).val / 4000 := rfl
  obtain ⟨e0, e1, e2, e3, e4, e5⟩ := blockAt t
  refine ⟨t, flush2_2 t, ?_⟩
  rw [mem_blk]
  intro a
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 32 ≤ (i 1).val ∧ (i 1).val < win2_2.index t (1 : Fin 2) * 32 + 32; omega

/-- When the region ends its output array is the whole product of the arrays it found. -/
theorem arr (c : Dev nD) :
    (dat2 (F := Ideal) V c).arrAt 2 cfg2.N = Cert.Gcn.matProd (V c main_v60) (V c main_arg4) :=
  (dat2 (F := Ideal) V c).arrAt_eq_of_cover 2 _ (fun t _ => flushed_eq V c t) cover

end Cert.KernelIdeal.Region2

end
-- ==== Proof.ChainB.lean ====
/-
  The tiled program's buffers from the first layer's aggregation to the second product.

  The stretch after the first product gathers the product's rows at the edges' sources, weights them, sums them at
  the edges' targets and adds the bias; it then forms the column means of the result and the one scale factor
  (the inverse square root of a small constant plus the mean squared distance of a row from the means row).  These
  are the whole-array program's operations on equal inputs, so each buffer holds that program's stage.  The
  normalisation region then leaves its output at the re-centred, scaled and clipped features — the whole-array
  program's subtraction, multiplication and maximum with zero — and the second product region at their product with
  the second weight matrix.
-/
import proofs.«118178_j24773371364082_1_alg».proof.Proof.ChainA
import proofs.«118178_j24773371364082_1_alg».proof.Proof.RegionPn1
import proofs.«118178_j24773371364082_1_alg».proof.Proof.RegionMat2

noncomputable section

namespace Cert.KernelIdeal.Chain

open Cert.KernelIdeal Cert.KernelIdeal.Gen Idealize.ShloMosaic Idealize.ShloMosaic.TcCoe Idealize.ShloMosaic.ValueIdx Idealize.SL.Sem
open Idealize.ShloMosaic.StableHlo
open Cert.ReferenceIdeal.ReadP

variable (m : (ℓ : Loc nD τ sig) → Buf (Elt Ideal) ℓ) (ρ : Dev nD → PrngReg)

/-! ## Boundary 5: the first layer's aggregation, its means row and its scale factor -/

set_option maxHeartbeats 2000000 in
/-- The first layer before normalisation: the weighted sum over incoming edges, plus the bias. -/
theorem agg_at5 (c : Dev nD) : W5 m ρ c (Proc.devRef .tc main_v46) = val_main_v46 (F := Ideal) (a0 m c) (a1 m c) (a2 m c) (a3 m c) := by
  show StableHlo.after hostOps1 (W4 m ρ c) (Proc.devRef .tc main_v46) = _
  generalize hX : W4 m ρ c = X
  after_results_simp
  subst hX
  rw [prod_at4 m ρ c, src_at4 m ρ c, dst_at4 m ρ c, wgt_at4 m ρ c, arg_at4 m ρ c main_arg3 (by decide) (by decide)]
  rfl

set_option maxHeartbeats 2000000 in
/-- Its column means, as a row. -/
theorem mean_at5 (c : Dev nD) : W5 m ρ c (Proc.devRef .tc main_v50) = val_main_v50 (F := Ideal) (a0 m c) (a1 m c) (a2 m c) (a3 m c) := by
  show StableHlo.after hostOps1 (W4 m ρ c) (Proc.devRef .tc main_v50) = _
  generalize hX : W4 m ρ c = X
  after_results_simp
  subst hX
  rw [prod_at4 m ρ c, src_at4 m ρ c, dst_at4 m ρ c, wgt_at4 m ρ c, arg_at4 m ρ c main_arg3 (by decide) (by decide)]
  rfl

set_option maxHeartbeats 4000000 in
/-- Its scale factor, as a one-by-one array. -/
theorem scaleArr_at5 (c : Dev nD) : W5 m ρ c (Proc.devRef .tc main_v59) = shapeCast S1x1 (val_main_v58 (F := Ideal) (a0 m c) (a1 m c) (a2 m c) (a3 m c)) shapeCasts_S_S1x1 := by
  show StableHlo.after hostOps1 (W4 m ρ c) (Proc.devRef .tc main_v59) = _
  generalize hX : W4 m ρ c = X
  after_results_simp
  subst hX
  rw [prod_at4 m ρ c, src_at4 m ρ c, dst_at4 m ρ c, wgt_at4 m ρ c, arg_at4 m ρ c main_arg3 (by decide) (by decide)]
  rfl

/-- The one entry of the scale factor's array is the rank-0 factor. -/
theorem scale_at5 (c : Dev nD) :
    W5 m ρ c (Proc.devRef .tc main_v59) (ix2 (0 : Fin 1) (0 : Fin 1)) = val_main_v58 (F := Ideal) (a0 m c) (a1 m c) (a2 m c) (a3 m c) ix0 := by
  rw [scaleArr_at5 m ρ c]
  exact shapeCast_apply _ _ (ix2 (0 : Fin 1) (0 : Fin 1)) ix0 rfl

theorem arg_at5 (c : Dev nD) (b : Ref sig .tc) (hb : b ∈ Carry.upTo6) (hb4 : b ∈ Carry.upTo4) (hb3 : b ∈ Carry.upTo3) :
    W5 m ρ c (Proc.devRef .tc b) = m ((c.tc : Thread nD τ).loc b) :=
  (Carry.pick (Carry.keep5 m ρ c) b hb).trans (arg_at4 m ρ c b hb4 hb3)
theorem src_at5 (c : Dev nD) : W5 m ρ c (Proc.devRef .tc main_v5) = val_main_v3 (F := Ideal) (a1 m c) :=
  (Carry.pick (Carry.keep5 m ρ c) main_v5 (by decide)).trans (src_at4 m ρ c)
theorem dst_at5 (c : Dev nD) : W5 m ρ c (Proc.devRef .tc main_v6) = val_main_v6 (F := Ideal) (a1 m c) :=
  (Carry.pick (Carry.keep5 m ρ c) main_v6 (by decide)).trans (dst_at4 m ρ c)
theorem wgt_at5 (c : Dev nD) : W5 m ρ c (Proc.devRef .tc main_v29) = val_main_v29 (F := Ideal) (a1 m c) :=
  (Carry.pick (Carry.keep5 m ρ c) main_v29 (by decide)).trans (wgt_at4 m ρ c)

/-! ## Boundary 6: the first normalisation step done -/

/-- The normalisation region's output: the features re-centred by their column means, scaled, clipped at zero. -/
theorem act_at6 (c : Dev nD) : W6 m ρ c (Proc.devRef .tc main_v60) = val_main_v61 (F := Ideal) (a0 m c) (a1 m c) (a2 m c) (a3 m c) := by
  refine (W6_arr m ρ c 3).trans ((Region1.arr (V5 m ρ) c).trans ?_)
  show Cert.Gcn.centreScaleClip (W5 m ρ c (Proc.devRef .tc main_v46)) (W5 m ρ c (Proc.devRef .tc main_v50))
      (W5 m ρ c (Proc.devRef .tc main_v59) (ix2 (0 : Fin 1) (0 : Fin 1))) = _
  rw [agg_at5 m ρ c, mean_at5 m ρ c, scale_at5 m ρ c]
  exact (Cert.ReferenceIdeal.Bridge.clip61 _ _ _ _).symm

theorem arg_at6 (c : Dev nD) (b : Ref sig .tc) (hb : b ∈ Carry.upTo6) (hb4 : b ∈ Carry.upTo4) (hb3 : b ∈ Carry.upTo3) :
    W6 m ρ c (Proc.devRef .tc b) = m ((c.tc : Thread nD τ).loc b) :=
  (Carry.pick (Carry.keep6 m ρ c) b hb).trans (arg_at5 m ρ c b hb hb4 hb3)
theorem src_at6 (c : Dev nD) : W6 m ρ c (Proc.devRef .tc main_v5) = val_main_v3 (F := Ideal) (a1 m c) :=
  (Carry.pick (Carry.keep6 m ρ c) main_v5 (by decide)).trans (src_at5 m ρ c)
theorem dst_at6 (c : Dev nD) : W6 m ρ c (Proc.devRef .tc main_v6) = val_main_v6 (F := Ideal) (a1 m c) :=
  (Carry.pick (Carry.keep6 m ρ c) main_v6 (by decide)).trans (dst_at5 m ρ c)
theorem wgt_at6 (c : Dev nD) : W6 m ρ c (Proc.devRef .tc main_v29) = val_main_v29 (F := Ideal) (a1 m c) :=
  (Carry.pick (Carry.keep6 m ρ c) main_v29 (by decide)).trans (wgt_at5 m ρ c)

/-! ## Boundary 7: the second product done -/

/-- The second product region's output: the normalised features times the second weight matrix. -/
theorem prod_at7 (c : Dev nD) : W7 m ρ c (Proc.devRef .tc main_v61) = val_main_v62 (F := Ideal) (a0 m c) (a1 m c) (a2 m c) (a3 m c) (a4 m c) := by
  refine (W7_arr m ρ c 2).trans ((Region2.arr (V6 m ρ) c).trans ?_)
  show Cert.Gcn.matProd (W6 m ρ c (Proc.devRef .tc main_v60)) (W6 m ρ c (Proc.devRef .tc main_arg4)) = _
  rw [act_at6 m ρ c, arg_at6 m ρ c main_arg4 (by decide) (by decide) (by decide)]
  exact (Cert.ReferenceIdeal.Bridge.prod62 _ _ _ _ _).symm

theorem arg_at7 (c : Dev nD) (b : Ref sig .tc) (hb : b ∈ Carry.upTo7) (hb6 : b ∈ Carry.upTo6) (hb4 : b ∈ Carry.upTo4) (hb3 : b ∈ Carry.upTo3) :
    W7 m ρ c (Proc.devRef .tc b) = m ((c.tc : Thread nD τ).loc b) :=
  (Carry.pick (Carry.keep7 m ρ c) b hb).trans (arg_at6 m ρ c b hb6 hb4 hb3)
theorem src_at7 (c : Dev nD) : W7 m ρ c (Proc.devRef .tc main_v5) = val_main_v3 (F := Ideal) (a1 m c) :=
  (Carry.pick (Carry.keep7 m ρ c) main_v5 (by decide)).trans (src_at6 m ρ c)
theorem dst_at7 (c : Dev nD) : W7 m ρ c (Proc.devRef .tc main_v6) = val_main_v6 (F := Ideal) (a1 m c) :=
  (Carry.pick (Carry.keep7 m ρ c) main_v6 (by decide)).trans (dst_at6 m ρ c)
theorem wgt_at7 (c : Dev nD) : W7 m ρ c (Proc.devRef .tc main_v29) = val_main_v29 (F := Ideal) (a1 m c) :=
  (Carry.pick (Carry.keep7 m ρ c) main_v29 (by decide)).trans (wgt_at6 m ρ c)

end Cert.KernelIdeal.Chain

end
-- ==== Proof.RegionPn3.lean ====
/-
  The second tiled normalisation step: what its output array holds when the region ends.

  The rows are cut into 10 blocks of 10000.  At point `t` the body reads rows `10000·t … 10000·t + 9999` of the
  features, the whole row of means and the one scale factor; it subtracts the means row from every row of the block,
  multiplies by the factor, clips below at zero, and writes the result back as the same rows of the output.  The
  body acts entry by entry, so entry `(p, q)` of the block it writes is entry `(10000·t + p, q)` of the same function
  of the whole array; the 10 blocks cover every row.
-/
import proofs.«118178_j24773371364082_1_alg».proof.Proof.Gen.KernelIdeal.Frame
import proofs.«118178_j24773371364082_1_alg».proof.Proof.Spec
import Idealize.ShloMosaic.Lib.Pipeline.Value
import Idealize.ShloMosaic.Lib.ValueLayout

noncomputable section

namespace Cert.KernelIdeal.Region3

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- A `[1, 1]` array spread over an `[a, b]` block reads its one entry everywhere. -/
theorem unitBroadcast_apply {α : Type} {a b : ℕ} (v : (⟨2, ![1, 1]⟩ : Shape).Idx → α) (h : (⟨2, ![1, 1]⟩ : Shape).Broadcasts ⟨2, ![a, b]⟩)
    (p : Fin a) (q : Fin b) : broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- Where each window's block sits at point `t`: the features' and the output's at row block `t`, the means row and
    the factor whole. Decided over the 10 points. -/
theorem blockAt : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The body's value at entry `(p, q)` of its block. -/
theorem body_apply (x0 : Vec Ideal S10000x32 .f32) (x1 : Vec Ideal S1x32 .f32) (x2 : Vec Ideal S1x1 .f32) (p : Fin 10000) (q : Fin 32) :
    k3_pay1 x0 x1 x2 (ix2 p q)
      = max ((x0 (ix2 p q) - x1 (ix2 (0 : Fin 1) q)) * x2 (ix2 (0 : Fin 1) (0 : Fin 1))) (Ideal.ofBits .f32 0x00000000#32) := by
  unfold k3_pay1
  rw [shapeCast_self, shapeCast_self, shapeCast_self]
  show max ((x0 (ix2 p q) - broadcastTo S10000x32 x1 broadcasts_S1x32_S10000x32 (ix2 p q))
      * broadcastTo S10000x32 x2 broadcasts_S1x1_S10000x32 (ix2 p q)) (Ideal.ofBits .f32 0x00000000#32) = _
  rw [broadcastTo_1b_ab_apply, unitBroadcast_apply]

/-- Entry `(p, q)` of block `t`, formed from block `t` of the features, the means row and the factor, is the entry of
    the re-centred, scaled and clipped whole array at the same place. -/
theorem block_entry (H : FVec Ideal S100000x32 .f32) (M : FVec Ideal S1x32 .f32) (Sc : FVec Ideal S1x1 .f32)
    (t : Fin cfg3.N) (p : Fin 10000) (q : Fin 32) :
    max ((H (((cfg3.win 0).blk t).view.emb (ix2 p q)) - M (((cfg3.win 1).blk t).view.emb (ix2 (0 : Fin 1) q)))
        * Sc (((cfg3.win 2).blk t).view.emb (ix2 (0 : Fin 1) (0 : Fin 1)))) (Ideal.ofBits .f32 0x00000000#32)
      = Cert.Gcn.centreScaleClip H M (Sc (ix2 (0 : Fin 1) (0 : Fin 1))) (((cfg3.win 3).blk t).view.emb (ix2 p q)) := by
  obtain ⟨e0, e1, e2, e3, e4, e5, e6, e7⟩ := blockAt t
  show _ = max ((H (((cfg3.win 3).blk t).view.emb (ix2 p q)) - M (ix2 (0 : Fin 1) ((((cfg3.win 3).blk t).view.emb (ix2 p q)) 1)))
        * Sc (ix2 (0 : Fin 1) (0 : Fin 1))) (Ideal.ofBits .f32 0x00000000#32)
  have h0 : ((cfg3.win 0).blk t).view.emb (ix2 p q) = ((cfg3.win 3).blk t).view.emb (ix2 p q) := by
    funext a; apply Fin.ext
    match a with
    | ⟨0, _⟩ => show win3_0.index t (0 : Fin 2) * 10000 + 1 * p.val = win3_3.index t (0 : Fin 2) * 10000 + 1 * p.val; omega
    | ⟨1, _⟩ => show win3_0.index t (1 : Fin 2) * 32 + 1 * q.val = win3_3.index t (1 : Fin 2) * 32 + 1 * q.val; omega
  have h1 : ((cfg3.win 1).blk t).view.emb (ix2 (0 : Fin 1) q) = ix2 (0 : Fin 1) ((((cfg3.win 3).blk t).view.emb (ix2 p q)) 1) := by
    funext a; apply Fin.ext
    match a with
    | ⟨0, _⟩ => show win3_1.index t (0 : Fin 2) * 1 + 1 * 0 = 0; omega
    | ⟨1, _⟩ => show win3_1.index t (1 : Fin 2) * 32 + 1 * q.val = win3_3.index t (1 : Fin 2) * 32 + 1 * q.val; omega
  have h2 : ((cfg3.win 2).blk t).view.emb (ix2 (0 : Fin 1) (0 : Fin 1)) = ix2 (0 : Fin 1) (0 : Fin 1) := by
    funext a; apply Fin.ext
    match a with
    | ⟨0, _⟩ => show win3_2.index t (0 : Fin 2) * 1 + 1 * 0 = 0; omega
    | ⟨1, _⟩ => show win3_2.index t (1 : Fin 2) * 1 + 1 * 0 = 0; omega
  rw [h0, h1, h2]
  rfl

/-- What point `t` writes back is block `t` of the re-centred, scaled and clipped whole array. -/
theorem flushed_eq (c : Dev nD) (t : Fin cfg3.N) :
    (dat3 (F := Ideal) V c).flushed 3 t
      = ((cfg3.win 3).blk t).view.read (Elt Ideal)
          (Cert.Gcn.centreScaleClip (V c main_v77) (V c main_v81) (V c main_v90 (ix2 (0 : Fin 1) (0 : Fin 1)))) := by
  show (cfg3.win 3).cut (grid3.coords t) ((dat3 (F := Ideal) V c).after 3 t) = _
  rw [after3_3]
  unfold out3_3
  rw [View.canon_unit_zero origin]
  simp only [View.ld_unit_zero (S := S10000x32) origin, View.ld_unit_zero (S := S1x32) origin, View.ld_unit_zero (S := S1x1) origin]
  funext j
  obtain ⟨p, q, rfl⟩ : ∃ (p : Fin 10000) (q : Fin 32), j = ix2 p q := ⟨j 0, j 1, eq_ix2 j⟩
  refine (body_apply (iblk3 V c 0 t) (iblk3 V c 1 t) (iblk3 V c 2 t) p q).trans ?_
  exact block_entry (V c main_v77) (V c main_v81) (V c main_v90) t p q

/-- An index of the output array lies in point `t`'s block iff each coordinate lies in the block's range. -/
theorem mem_blk (t : Fin cfg3.N) (i : S100000x32.Idx) :
    i ∈ ((cfg3.win 3).blk t).view.set ↔ ∀ a : Fin 2, win3_3.index t a * S10000x32.size a ≤ (i a).val ∧ (i a).val < win3_3.index t a * S10000x32.size a + S10000x32.size a := by
  show i ∈ ((View.whole main_v91).slice (win3_3.rect t)).set ↔ _
  rw [View.set_slice_whole, Rect.mem_set_unit]
  exact Iff.rfl

/-- Every row lies in one of the 10 blocks: row `r` in block `r / 10000`. -/
theorem cover (i : S100000x32.Idx) : ∃ t : Fin cfg3.N, (cfg3.win 3).flush t = true ∧ i ∈ ((cfg3.win 3).blk t).view.set := by
  have hi0 : (i 0).val < 100000 := (i 0).isLt
  have hi1 : (i 1).val < 32 := (i 1).isLt
  have hN : cfg3.N = 10 := N_3
  let t : Fin cfg3.N := ⟨(i 0).val / 10000, by rw [hN]; omega⟩
  have ht : t.val = (i 0).val / 10000 := rfl
  obtain ⟨e0, e1, e2, e3, e4, e5, e6, e7⟩ := blockAt t
  refine ⟨t, flush3_3 t, ?_⟩
  rw [mem_blk]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 32 ≤ (i 1).val ∧ (i 1).val < win3_3.index t (1 : Fin 2) * 32 + 32; omega

/-- When the region ends its output array is the re-centred, scaled and clipped array it found. -/
theorem arr (c : Dev nD) :
    (dat3 (F := Ideal) V c).arrAt 3 cfg3.N
      = Cert.Gcn.centreScaleClip (V c main_v77) (V c main_v81) (V c main_v90 (ix2 (0 : Fin 1) (0 : Fin 1))) :=
  (dat3 (F := Ideal) V c).arrAt_eq_of_cover 3 _ (fun t _ => flushed_eq V c t) cover

end Cert.KernelIdeal.Region3

end
-- ==== Proof.RegionMat4.lean ====
/-
  The third tiled product: what its output array holds when the region ends.

  The rows are cut into 25 blocks of 4000.  At point `t` the body reads rows `4000·t … 4000·t + 3999` of the left
  matrix and the whole right matrix, forms their product into a zero accumulator, and writes it back as the same
  rows of the output.  Entry `(p, q)` of that block is the sum over `l` of `A (4000·t + p, l) · B (l, q)`, which
  is entry `(4000·t + p, q)` of the whole product; the 25 blocks cover every row, so the array ends as the product.
-/
import proofs.«118178_j24773371364082_1_alg».proof.Proof.Gen.KernelIdeal.Frame
import proofs.«118178_j24773371364082_1_alg».proof.Proof.Spec
import proofs.«118178_j24773371364082_1_alg».proof.Proof.LibMatRows
import Idealize.ShloMosaic.Lib.Pipeline.Value

noncomputable section

namespace Cert.KernelIdeal.Region4

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at point `t`: the left operand's and the output's at row block `t`, the right
    operand whole. Decided over the 25 points. -/
theorem blockAt : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The body's value at entry `(p, q)` of its block: the inner product of row `p` of the left block with column `q`
    of the right matrix (a change of float format, and a shape cast of a block to its own shape, are the identity). -/
theorem body_apply (x0 : Vec Ideal S4000x32 .f32) (x1 : Vec Ideal S32x40 .f32) (p : Fin 4000) (q : Fin 40) :
    k4_pay1 x0 x1 (ix2 p q) = ∑ l : Fin 32, x0 (ix2 p l) * x1 (ix2 l q) := by
  unfold k4_pay1
  rw [shapeCast_self]
  exact Cert.MatRows.matmul_zero_apply dot_S4000x32_S32x40_S4000x40_1_0_0_1_n_n rfl rfl (fun _ _ => rfl) (fun _ _ => rfl)
    (fun _ _ => rfl) (fun _ _ => rfl) _ _ p q

/-- Entry `(p, q)` of block `t`, formed from block `t` of the left matrix and the whole right matrix, is the entry of
    the whole product at the same place of the array. -/
theorem block_entry (A : FVec Ideal S100000x32 .f32) (B : FVec Ideal S32x40 .f32) (t : Fin cfg4.N) (p : Fin 4000) (q : Fin 40) :
    (∑ l : Fin 32, A (((cfg4.win 0).blk t).view.emb (ix2 p l)) * B (((cfg4.win 1).blk t).view.emb (ix2 l q)))
      = Cert.Gcn.matProd A B (((cfg4.win 2).blk t).view.emb (ix2 p q)) := by
  obtain ⟨e0, e1, e2, e3, e4, e5⟩ := blockAt t
  show _ = ∑ l : Fin 32, A (ix2 ((((cfg4.win 2).blk t).view.emb (ix2 p q)) 0) l) * B (ix2 l ((((cfg4.win 2).blk t).view.emb (ix2 p q)) 1))
  refine Finset.sum_congr rfl fun l _ => ?_
  have h0 : ((cfg4.win 0).blk t).view.emb (ix2 p l) = ix2 ((((cfg4.win 2).blk t).view.emb (ix2 p q)) 0) l := by
    funext a; apply Fin.ext
    match a with
    | ⟨0, _⟩ => show win4_0.index t (0 : Fin 2) * 4000 + 1 * p.val = win4_2.index t (0 : Fin 2) * 4000 + 1 * p.val; omega
    | ⟨1, _⟩ => show win4_0.index t (1 : Fin 2) * 32 + 1 * l.val = l.val; omega
  have h1 : ((cfg4.win 1).blk t).view.emb (ix2 l q) = ix2 l ((((cfg4.win 2).blk t).view.emb (ix2 p q)) 1) := by
    funext a; apply Fin.ext
    match a with
    | ⟨0, _⟩ => show win4_1.index t (0 : Fin 2) * 32 + 1 * l.val = l.val; omega
    | ⟨1, _⟩ => show win4_1.index t (1 : Fin 2) * 40 + 1 * q.val = win4_2.index t (1 : Fin 2) * 40 + 1 * q.val; omega
  rw [h0, h1]
  rfl

/-- What point `t` writes back is block `t` of the whole product of the arrays the region finds. -/
theorem flushed_eq (c : Dev nD) (t : Fin cfg4.N) :
    (dat4 (F := Ideal) V c).flushed 2 t
      = ((cfg4.win 2).blk t).view.read (Elt Ideal) (Cert.Gcn.matProd (V c main_v91) (V c main_arg6)) := by
  show (cfg4.win 2).cut (grid4.coords t) ((dat4 (F := Ideal) V c).after 2 t) = _
  rw [after4_2]
  unfold out4_2
  rw [View.canon_unit_zero origin]
  simp only [View.ld_unit_zero (S := S4000x32) origin, View.ld_unit_zero (S := S32x40) origin]
  funext j
  obtain ⟨p, q, rfl⟩ : ∃ (p : Fin 4000) (q : Fin 40), j = ix2 p q := ⟨j 0, j 1, eq_ix2 j⟩
  refine (body_apply (iblk4 V c 0 t) (iblk4 V c 1 t) p q).trans ?_
  exact block_entry (V c main_v91) (V c main_arg6) t p q

/-- An index of the output array lies in point `t`'s block iff each coordinate lies in the block's range. -/
theorem mem_blk (t : Fin cfg4.N) (i : S100000x40.Idx) :
    i ∈ ((cfg4.win 2).blk t).view.set ↔ ∀ a : Fin 2, win4_2.index t a * S4000x40.size a ≤ (i a).val ∧ (i a).val < win4_2.index t a * S4000x40.size a + S4000x40.size a := by
  show i ∈ ((View.whole main_v92).slice (win4_2.rect t)).set ↔ _
  rw [View.set_slice_whole, Rect.mem_set_unit]
  exact Iff.rfl

/-- Every row lies in one of the 25 blocks: row `r` in block `r / 4000`. -/
theorem cover (i : S100000x40.Idx) : ∃ t : Fin cfg4.N, (cfg4.win 2).flush t = true ∧ i ∈ ((cfg4.win 2).blk t).view.set := by
  have hi0 : (i 0).val < 100000 := (i 0).isLt
  have hi1 : (i 1).val < 40 := (i 1).isLt
  have hN : cfg4.N = 25 := N_4
  let t : Fin cfg4.N := ⟨(i 0).val / 4000, by rw [hN]; omega⟩
  have ht : t.val = (i 0).val / 4000 := rfl
  obtain ⟨e0, e1, e2, e3, e4, e5⟩ := blockAt t
  refine ⟨t, flush4_2 t, ?_⟩
  rw [mem_blk]
  intro a
  match a with
  | ⟨0, _⟩ => show win4_2.index t (0 : Fin 2) * 4000 ≤ (i 0).val ∧ (i 0).val < win4_2.index t (0 : Fin 2) * 4000 + 4000; omega
  | ⟨1, _⟩ => show win4_2.index t (1 : Fin 2) * 40 ≤ (i 1).val ∧ (i 1).val < win4_2.index t (1 : Fin 2) * 40 + 40; omega

/-- When the region ends its output array is the whole product of the arrays it found. -/
theorem arr (c : Dev nD) :
    (dat4 (F := Ideal) V c).arrAt 2 cfg4.N = Cert.Gcn.matProd (V c main_v91) (V c main_arg6) :=
  (dat4 (F := Ideal) V c).arrAt_eq_of_cover 2 _ (fun t _ => flushed_eq V c t) cover

end Cert.KernelIdeal.Region4

end
-- ==== Proof.ChainC.lean ====
/-
  The tiled program's buffers from the second layer's aggregation to its result.

  The second layer repeats the first on the second product: gather at the sources, weight, sum at the targets, add
  the bias; column means and the scale factor; the normalisation region; then the third product region, and a last
  stretch that aggregates the third product and adds the last bias.  At every boundary each buffer that is read
  later holds the whole-array program's stage of the launch contents, and the last one is that program's result.
-/
import proofs.«118178_j24773371364082_1_alg».proof.Proof.ChainB
import proofs.«118178_j24773371364082_1_alg».proof.Proof.RegionPn3
import proofs.«118178_j24773371364082_1_alg».proof.Proof.RegionMat4

noncomputable section

namespace Cert.KernelIdeal.Chain

open Cert.KernelIdeal Cert.KernelIdeal.Gen Idealize.ShloMosaic Idealize.ShloMosaic.TcCoe Idealize.ShloMosaic.ValueIdx Idealize.SL.Sem
open Idealize.ShloMosaic.StableHlo
open Cert.ReferenceIdeal.ReadP

variable (m : (ℓ : Loc nD τ sig) → Buf (Elt Ideal) ℓ) (ρ : Dev nD → PrngReg)

/-! ## Boundary 8: the second layer's aggregation, its means row and its scale factor -/

set_option maxHeartbeats 2000000 in
/-- The second layer before normalisation. -/
theorem agg_at8 (c : Dev nD) : W8 m ρ c (Proc.devRef .tc main_v77) = val_main_v78 (F := Ideal) (a0 m c) (a1 m c) (a2 m c) (a3 m c) (a4 m c) (a5 m c) := by
  show StableHlo.after hostOps3 (W7 m ρ c) (Proc.devRef .tc main_v77) = _
  generalize hX : W7 m ρ c = X
  after_results_simp
  subst hX
  rw [prod_at7 m ρ c, src_at7 m ρ c, dst_at7 m ρ c, wgt_at7 m ρ c, arg_at7 m ρ c main_arg5 (by decide) (by decide) (by decide) (by decide)]
  rfl

set_option maxHeartbeats 2000000 in
/-- Its column means, as a row. -/
theorem mean_at8 (c : Dev nD) : W8 m ρ c (Proc.devRef .tc main_v81) = val_main_v82 (F := Ideal) (a0 m c) (a1 m c) (a2 m c) (a3 m c) (a4 m c) (a5 m c) := by
  show StableHlo.after hostOps3 (W7 m ρ c) (Proc.devRef .tc main_v81) = _
  generalize hX : W7 m ρ c = X
  after_results_simp
  subst hX
  rw [prod_at7 m ρ c, src_at7 m ρ c, dst_at7 m ρ c, wgt_at7 m ρ c, arg_at7 m ρ c main_arg5 (by decide) (by decide) (by decide) (by decide)]
  rfl

set_option maxHeartbeats 4000000 in
/-- Its scale factor, as a one-by-one array. -/
theorem scaleArr_at8 (c : Dev nD) : W8 m ρ c (Proc.devRef .tc main_v90) = shapeCast S1x1 (val_main_v90 (F := Ideal) (a0 m c) (a1 m c) (a2 m c) (a3 m c) (a4 m c) (a5 m c)) shapeCasts_S_S1x1 := by
  show StableHlo.after hostOps3 (W7 m ρ c) (Proc.devRef .tc main_v90) = _
  generalize hX : W7 m ρ c = X
  after_results_simp
  subst hX
  rw [prod_at7 m ρ c, src_at7 m ρ c, dst_at7 m ρ c, wgt_at7 m ρ c, arg_at7 m ρ c main_arg5 (by decide) (by decide) (by decide) (by decide)]
  rfl

/-- The one entry of the scale factor's array is the rank-0 factor. -/
theorem scale_at8 (c : Dev nD) :
    W8 m ρ c (Proc.devRef .tc main_v90) (ix2 (0 : Fin 1) (0 : Fin 1)) = val_main_v90 (F := Ideal) (a0 m c) (a1 m c) (a2 m c) (a3 m c) (a4 m c) (a5 m c) ix0 := by
  rw [scaleArr_at8 m ρ c]
  exact shapeCast_apply _ _ (ix2 (0 : Fin 1) (0 : Fin 1)) ix0 rfl

theorem arg_at8 (c : Dev nD) (b : Ref sig .tc) (hb : b ∈ Carry.upTo9) (hb7 : b ∈ Carry.upTo7) (hb6 : b ∈ Carry.upTo6) (hb4 : b ∈ Carry.upTo4)
    (hb3 : b ∈ Carry.upTo3) : W8 m ρ c (Proc.devRef .tc b) = m ((c.tc : Thread nD τ).loc b) :=
  (Carry.pick (Carry.keep8 m ρ c) b hb).trans (arg_at7 m ρ c b hb7 hb6 hb4 hb3)
theorem src_at8 (c : Dev nD) : W8 m ρ c (Proc.devRef .tc main_v5) = val_main_v3 (F := Ideal) (a1 m c) :=
  (Carry.pick (Carry.keep8 m ρ c) main_v5 (by decide)).trans (src_at7 m ρ c)
theorem dst_at8 (c : Dev nD) : W8 m ρ c (Proc.devRef .tc main_v6) = val_main_v6 (F := Ideal) (a1 m c) :=
  (Carry.pick (Carry.keep8 m ρ c) main_v6 (by decide)).trans (dst_at7 m ρ c)
theorem wgt_at8 (c : Dev nD) : W8 m ρ c (Proc.devRef .tc main_v29) = val_main_v29 (F := Ideal) (a1 m c) :=
  (Carry.pick (Carry.keep8 m ρ c) main_v29 (by decide)).trans (wgt_at7 m ρ c)

/-! ## Boundary 9: the second normalisation step done -/

/-- The normalisation region's output. -/
theorem act_at9 (c : Dev nD) : W9 m ρ c (Proc.devRef .tc main_v91) = val_main_v93 (F := Ideal) (a0 m c) (a1 m c) (a2 m c) (a3 m c) (a4 m c) (a5 m c) := by
  refine (W9_arr m ρ c 3).trans ((Region3.arr (V8 m ρ) c).trans ?_)
  show Cert.Gcn.centreScaleClip (W8 m ρ c (Proc.devRef .tc main_v77)) (W8 m ρ c (Proc.devRef .tc main_v81))
      (W8 m ρ c (Proc.devRef .tc main_v90) (ix2 (0 : Fin 1) (0 : Fin 1))) = _
  rw [agg_at8 m ρ c, mean_at8 m ρ c, scale_at8 m ρ c]
  exact (Cert.ReferenceIdeal.Bridge.clip93 _ _ _ _ _ _).symm

theorem arg_at9 (c : Dev nD) (b : Ref sig .tc) (hb : b ∈ Carry.upTo9) (hb7 : b ∈ Carry.upTo7) (hb6 : b ∈ Carry.upTo6) (hb4 : b ∈ Carry.upTo4)
    (hb3 : b ∈ Carry.upTo3) : W9 m ρ c (Proc.devRef .tc b) = m ((c.tc : Thread nD τ).loc b) :=
  (Carry.pick (Carry.keep9 m ρ c) b hb).trans (arg_at8 m ρ c b hb hb7 hb6 hb4 hb3)
theorem src_at9 (c : Dev nD) : W9 m ρ c (Proc.devRef .tc main_v5) = val_main_v3 (F := Ideal) (a1 m c) :=
  (Carry.pick (Carry.keep9 m ρ c) main_v5 (by decide)).trans (src_at8 m ρ c)
theorem dst_at9 (c : Dev nD) : W9 m ρ c (Proc.devRef .tc main_v6) = val_main_v6 (F := Ideal) (a1 m c) :=
  (Carry.pick (Carry.keep9 m ρ c) main_v6 (by decide)).trans (dst_at8 m ρ c)
theorem wgt_at9 (c : Dev nD) : W9 m ρ c (Proc.devRef .tc main_v29) = val_main_v29 (F := Ideal) (a1 m c) :=
  (Carry.pick (Carry.keep9 m ρ c) main_v29 (by decide)).trans (wgt_at8 m ρ c)

/-! ## Boundary 10: the third product done -/

/-- The third product region's output: the normalised features times the last weight matrix. -/
theorem prod_at10 (c : Dev nD) : W10 m ρ c (Proc.devRef .tc main_v92) = val_main_v94 (F := Ideal) (a0 m c) (a1 m c) (a2 m c) (a3 m c) (a4 m c) (a5 m c) (a6 m c) := by
  refine (W10_arr m ρ c 2).trans ((Region4.arr (V9 m ρ) c).trans ?_)
  show Cert.Gcn.matProd (W9 m ρ c (Proc.devRef .tc main_v91)) (W9 m ρ c (Proc.devRef .tc main_arg6)) = _
  rw [act_at9 m ρ c, arg_at9 m ρ c main_arg6 (by decide) (by decide) (by decide) (by decide) (by decide)]
  exact (Cert.ReferenceIdeal.Bridge.prod94 _ _ _ _ _ _ _).symm

theorem arg_at10 (c : Dev nD) (b : Ref sig .tc) (hb : b ∈ Carry.upTo10) (hb9 : b ∈ Carry.upTo9) (hb7 : b ∈ Carry.upTo7) (hb6 : b ∈ Carry.upTo6)
    (hb4 : b ∈ Carry.upTo4) (hb3 : b ∈ Carry.upTo3) : W10 m ρ c (Proc.devRef .tc b) = m ((c.tc : Thread nD τ).loc b) :=
  (Carry.pick (Carry.keep10 m ρ c) b hb).trans (arg_at9 m ρ c b hb9 hb7 hb6 hb4 hb3)
theorem src_at10 (c : Dev nD) : W10 m ρ c (Proc.devRef .tc main_v5) = val_main_v3 (F := Ideal) (a1 m c) :=
  (Carry.pick (Carry.keep10 m ρ c) main_v5 (by decide)).trans (src_at9 m ρ c)
theorem dst_at10 (c : Dev nD) : W10 m ρ c (Proc.devRef .tc main_v6) = val_main_v6 (F := Ideal) (a1 m c) :=
  (Carry.pick (Carry.keep10 m ρ c) main_v6 (by decide)).trans (dst_at9 m ρ c)
theorem wgt_at10 (c : Dev nD) : W10 m ρ c (Proc.devRef .tc main_v29) = val_main_v29 (F := Ideal) (a1 m c) :=
  (Carry.pick (Carry.keep10 m ρ c) main_v29 (by decide)).trans (wgt_at9 m ρ c)

/-! ## Boundary 11: the result -/

set_option maxHeartbeats 2000000 in
/-- The result buffer holds the whole-array program's result of the launch contents of the arguments. -/
theorem result_at11 (c : Dev nD) : W11 m ρ c (Proc.devRef .tc main_v108) = val_main_v110 (F := Ideal) (a0 m c) (a1 m c) (a2 m c) (a3 m c) (a4 m c) (a5 m c) (a6 m c) (a7 m c) := by
  show StableHlo.after hostOps5 (W10 m ρ c) (Proc.devRef .tc main_v108) = _
  generalize hX : W10 m ρ c = X
  after_results_simp
  subst hX
  rw [prod_at10 m ρ c, src_at10 m ρ c, dst_at10 m ρ c, wgt_at10 m ρ c, arg_at10 m ρ c main_arg7 (by decide) (by decide) (by decide) (by decide) (by decide) (by decide)]
  rfl

end Cert.KernelIdeal.Chain

end
-- ==== Proof.lean ====
/-
  A three-layer graph convolution, tiled, against the same network written over whole arrays: equal results on the
  extended reals.

  Both programs first build, from the edge list alone, the source and target index arrays (the edges and one self
  loop per node) and the edge weights (for an edge, the product of the inverse square roots of its end points'
  degrees).  Each layer multiplies the node features by a weight matrix, gathers the product's rows at the sources,
  weights them, sums them at the targets, and adds a bias; between layers the features are re-centred by their column
  means, scaled by one factor (the inverse square root of a small constant plus the mean squared distance of a row
  from the means row), and clipped below at zero.

  The tiled program forms each product block of 4000 rows by block, and applies the re-centring, scaling and clipping
  block of 10000 rows by block, from a means row and a factor computed beforehand; everything else it does with the
  whole-array program's own operations.  A product's entry `(i, j)` is the sum over `l` of `A (i, l) · B (l, j)`
  whichever block row `i` falls in, and the normalisation acts entry by entry, so each region leaves its output array
  at the whole-array program's value (Proof/RegionMat*.lean, Proof/RegionPn*.lean, joined to that program's stages in
  Proof/RefBridge.lean).  Following the run boundary by boundary (Proof/ChainA.lean to ChainC.lean), every buffer
  that is read later holds the whole-array program's stage of the arguments, and so does the result.  No law that
  needs finite entries is used: sums on the extended reals may be regrouped freely.

  The three frames: each program's run terminates without a fault and leaves the arguments as launched.  The tiled
  program's idealization rewrote nothing, so there is nothing to preserve.
-/
import proofs.«118178_j24773371364082_1_alg».proof.Defs
import proofs.«118178_j24773371364082_1_alg».proof.Proof.Gen.Kernel
import proofs.«118178_j24773371364082_1_alg».proof.Proof.Gen.Kernel.Frame
import proofs.«118178_j24773371364082_1_alg».proof.Proof.Gen.KernelIdeal
import proofs.«118178_j24773371364082_1_alg».proof.Proof.Gen.KernelIdeal.Frame
import proofs.«118178_j24773371364082_1_alg».proof.Proof.Gen.ReferenceIdeal
import proofs.«118178_j24773371364082_1_alg».proof.Proof.Gen.Pre_finite_inputs
import proofs.«118178_j24773371364082_1_alg».proof.Proof.RunValue
import proofs.«118178_j24773371364082_1_alg».proof.Proof.RefRunP
import proofs.«118178_j24773371364082_1_alg».proof.Proof.RefReadP
import proofs.«118178_j24773371364082_1_alg».proof.Proof.ChainC
import Idealize.ShloMosaic.Adequacy
import Idealize.ShloMosaic.Init

noncomputable section

namespace Cert.Proof

open Idealize.ShloMosaic Idealize.SL.Sem

/-- The tiled program as printed runs to the end and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the whole-array program: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with the result buffer at the whole-array program's function of the arguments. -/
theorem algebraic : Cert.algebraic_KernelIdeal_ReferenceIdeal := by
  intro m ρ m' ρ' _ hagree
  refine ⟨fun c => Cert.ReferenceIdeal.ReadP.val_main_v110 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.result_at11 m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7⟩ := hagree c
    rw [Cert.ReferenceIdeal.ReadP.val_main_v110_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
